-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x320 : Shape := ⟨2, ![100000, 320]⟩
abbrev S2x3200000 : Shape := ⟨2, ![2, 3200000]⟩
abbrev S100000 : Shape := ⟨1, ![100000]⟩
abbrev S320x64 : Shape := ⟨2, ![320, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x320 : S_.BroadcastsInDim S100000x320 (![] : Fin 0 → Fin S100000x320.rank)
  reducesTo_S100000x320_S_d0_1 : S100000x320.ReducesTo [0, 1] S_
  h_S_ : 0 < S_.numel
  bcast_S_S320x64 : S_.BroadcastsInDim S320x64 (![] : Fin 0 → Fin S320x64.rank)
  reducesTo_S320x64_S_d0_1 : S320x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x1 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x320 .f32) (main_arg1 : IVec S2x3200000 32) (main_arg2 : IVec S100000 32) (main_arg3 : FVec F S320x64 .f32) (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) : IVec S_ 1 :=
  let main_v0 : FVec F S100000x320 .f32 := Host.absf main_arg0
  let main_cst : FVec F S_ .f32 := constant S_ .f32 0x7F800000#32
  let main_v1 : FVec F S100000x320 .f32 := broadcastInDim S100000x320 ![] bcast_S_S100000x320 main_cst
  let main_v2 : IVec S100000x320 1 := cmpf .olt main_v0 main_v1
  let main_c : IVec S_ 1 := constantI S_ 1 1#1
  let main_v3 : IVec S_ 1 := (fun x v => Host.reduce IntOp.andi x v reducesTo_S100000x320_S_d0_1 h_S_) main_v2 main_c
  let main_v4 : FVec F S320x64 .f32 := Host.absf main_arg3
  let main_cst_0 : FVec F S_ .f32 := constant S_ .f32 0x7F800000#32
  let main_v5 : FVec F S320x64 .f32 := broadcastInDim S320x64 ![] bcast_S_S320x64 main_cst_0
  let main_v6 : IVec S320x64 1 := cmpf .olt main_v4 main_v5
  let main_c_1 : IVec S_ 1 := constantI S_ 1 1#1
  let main_v7 : IVec S_ 1 := (fun x v => Host.reduce IntOp.andi x v reducesTo_S320x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x320 : Shape := ⟨2, ![100000, 320]⟩
abbrev S2x3200000 : Shape := ⟨2, ![2, 3200000]⟩
abbrev S100000 : Shape := ⟨1, ![100000]⟩
abbrev S320x64 : Shape := ⟨2, ![320, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x320 : Shape := ⟨2, ![5000, 320]⟩
abbrev S5000x64 : Shape := ⟨2, ![5000, 64]⟩
abbrev S3300000x64 : Shape := ⟨2, ![3300000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S1x1 : Shape := ⟨2, ![1, 1]⟩

abbrev nBuf : Space → Nat
  | .hbm => 126
  | .vmem => 34
  | .smem => 0
  | _ => 0

abbrev bufTy : (tb : Table) → Fin (tcTables nBuf tb) → BufTy
  | .hbm, ⟨0, _⟩ => ⟨S100000x320, .f32⟩
  | .hbm, ⟨1, _⟩ => ⟨S2x3200000, .i32⟩
  | .hbm, ⟨2, _⟩ => ⟨S100000, .i32⟩
  | .hbm, ⟨3, _⟩ => ⟨S320x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000, .f32⟩
  | .hbm, ⟨50, _⟩ => ⟨S3300000, .f32⟩
  | .hbm, ⟨51, _⟩ => ⟨S100000x64, .f32⟩
  | .hbm, ⟨52, _⟩ => ⟨S_, .i32⟩
  | .hbm, ⟨53, _⟩ => ⟨S3300000, .i32⟩
  | .hbm, ⟨54, _⟩ => ⟨S3300000, .i1⟩
  | .hbm, ⟨55, _⟩ => ⟨S_, .i32⟩
  | .hbm, ⟨56, _⟩ => ⟨S3300000, .i32⟩
  | .hbm, ⟨57, _⟩ => ⟨S3300000, .i32⟩
  | .hbm, ⟨58, _⟩ => ⟨S3300000, .i32⟩
  | .hbm, ⟨59, _⟩ => ⟨S3300000x1, .i32⟩
  | .hbm, ⟨60, _⟩ => ⟨S3300000x64, .f32⟩
  | .hbm, ⟨61, _⟩ => ⟨S3300000x1, .f32⟩
  | .hbm, ⟨62, _⟩ => ⟨S3300000x64, .f32⟩
  | .hbm, ⟨63, _⟩ => ⟨S3300000x64, .f32⟩
  | .hbm, ⟨64, _⟩ => ⟨S_, .f32⟩
  | .hbm, ⟨65, _⟩ => ⟨S100000x64, .f32⟩
  | .hbm, ⟨66, _⟩ => ⟨S3300000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x64, .f32⟩
  | .hbm, ⟨80, _⟩ => ⟨S3300000x1, .f32⟩
  | .hbm, ⟨81, _⟩ => ⟨S3300000x64, .f32⟩
  | .hbm, ⟨82, _⟩ => ⟨S3300000x64, .f32⟩
  | .hbm, ⟨83, _⟩ => ⟨S_, .f32⟩
  | .hbm, ⟨84, _⟩ => ⟨S100000x64, .f32⟩
  | .hbm, ⟨85, _⟩ => ⟨S3300000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S_, .i32⟩
  | .hbm, ⟨91, _⟩ => ⟨S3300000, .i32⟩
  | .hbm, ⟨92, _⟩ => ⟨S3300000, .i1⟩
  | .hbm, ⟨93, _⟩ => ⟨S_, .i32⟩
  | .hbm, ⟨94, _⟩ => ⟨S3300000, .i32⟩
  | .hbm, ⟨95, _⟩ => ⟨S3300000, .i32⟩
  | .hbm, ⟨96, _⟩ => ⟨S3300000, .i32⟩
  | .hbm, ⟨97, _⟩ => ⟨S3300000x1, .i32⟩
  | .hbm, ⟨98, _⟩ => ⟨S3300000x64, .f32⟩
  | .hbm, ⟨99, _⟩ => ⟨S3300000x1, .f32⟩
  | .hbm, ⟨100, _⟩ => ⟨S3300000x64, .f32⟩
  | .hbm, ⟨101, _⟩ => ⟨S3300000x64, .f32⟩
  | .hbm, ⟨102, _⟩ => ⟨S_, .f32⟩
  | .hbm, ⟨103, _⟩ => ⟨S100000x64, .f32⟩
  | .hbm, ⟨104, _⟩ => ⟨S3300000x1, .i32⟩
  | .hbm, ⟨105, _⟩ => ⟨S100000x64, .f32⟩
  | .hbm, ⟨106, _⟩ => ⟨S1x64, .f32⟩
  | .hbm, ⟨107, _⟩ => ⟨S100000x64, .f32⟩
  | .hbm, ⟨108, _⟩ => ⟨S_, .f32⟩
  | .hbm, ⟨109, _⟩ => ⟨S256x64, .f32⟩
  | .hbm, ⟨110, _⟩ => ⟨S100000x1, .i32⟩
  | .hbm, ⟨111, _⟩ => ⟨S256x64, .f32⟩
  | .hbm, ⟨112, _⟩ => ⟨S_, .f32⟩
  | .hbm, ⟨113, _⟩ => ⟨S100000, .f32⟩
  | .hbm, ⟨114, _⟩ => ⟨S_, .f32⟩
  | .hbm, ⟨115, _⟩ => ⟨S256, .f32⟩
  | .hbm, ⟨116, _⟩ => ⟨S100000x1, .i32⟩
  | .hbm, ⟨117, _⟩ => ⟨S256, .f32⟩
  | .hbm, ⟨118, _⟩ => ⟨S_, .f32⟩
  | .hbm, ⟨119, _⟩ => ⟨S256, .f32⟩
  | .hbm, ⟨120, _⟩ => ⟨S256, .f32⟩
  | .hbm, ⟨121, _⟩ => ⟨S256x1, .f32⟩
  | .hbm, ⟨122, _⟩ => ⟨S256x64, .f32⟩
  | .hbm, ⟨123, _⟩ => ⟨S256x64, .f32⟩
  | .hbm, ⟨124, _⟩ => ⟨S1x1, .f32⟩
  | .hbm, ⟨125, _⟩ => ⟨S256x1, .f32⟩
  | .local _ .vmem, ⟨0, _⟩ => ⟨S5000x320, .f32⟩
  | .local _ .vmem, ⟨1, _⟩ => ⟨S5000x320, .f32⟩
  | .local _ .vmem, ⟨2, _⟩ => ⟨S320x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S256x64, .f32⟩
  | .local _ .vmem, ⟨31, _⟩ => ⟨S64x1, .f32⟩
  | .local _ .vmem, ⟨32, _⟩ => ⟨S1x1, .f32⟩
  | .local _ .vmem, ⟨33, _⟩ => ⟨S256x1, .f32⟩
  | _, _ => ⟨S100000x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S320x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S256x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x320_S5000x320_0_0 : ∀ a, (![0, 0] : Fin 2 → Nat) a + S5000x320.size a ≤ S5000x320.size a
  h_S5000x320 : 0 < S5000x320.numel
  bitsLt_bf16_f32 : FTy.bits .bf16 < FTy.bits .f32
  inb_S320x64_S320x64_0_0 : ∀ a, (![0, 0] : Fin 2 → Nat) a + S320x64.size a ≤ S320x64.size a
  h_S320x64 : 0 < S320x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  shapeCasts_S1_S1x1 : S1.ShapeCasts S1x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x320_S320x64_S5000x64_1_0_0_1_n_n_wf : DotDims.WF S5000x320 S320x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x64_S5000x64_1_0_0_1_n_n_wf : DotDims.WF S5000x64 S64x64 S5000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x320.size a ≤ S100000x320.size a
  hwx0_0 : ∀ i : grid0.Coords, EltTy.bits .f32 = 32 ∨ (Rect.block (s := S100000x320) S5000x320.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S320x64.size a ≤ S320x64.size a
  hwx0_1 : ∀ i : grid0.Coords, EltTy.bits .f32 = 32 ∨ (Rect.block (s := S320x64) S320x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S256x64.size a ≤ S256x64.size a
  hwx6_0 : ∀ i : grid6.Coords, EltTy.bits .f32 = 32 ∨ (Rect.block (s := S256x64) S256x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x1.size a ≤ S64x1.size a
  hwx6_1 : ∀ i : grid6.Coords, EltTy.bits .f32 = 32 ∨ (Rect.block (s := S64x1) S64x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x1.size a ≤ S256x1.size a
  hwx6_3 : ∀ i : grid6.Coords, EltTy.bits .f32 = 32 ∨ (Rect.block (s := S256x1) S256x1.size (cc6_transform_3 i) (hinb6_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x320_S320x64_S5000x64_1_0_0_1_n_n : DotDims S5000x320 S320x64 S5000x64 where
  lhsContracting := [1]
  rhsContracting := [0]
  lhsNonContracting := [0]
  rhsNonContracting := [1]
  lhsBatch := []
  rhsBatch := []
  wf := dot_S5000x320_S320x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_arg0) S5000x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S320x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v89) S256x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v90) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v91) S256x1.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x320 : Shape := ⟨2, ![100000, 320]⟩
abbrev S2x3200000 : Shape := ⟨2, ![2, 3200000]⟩
abbrev S100000 : Shape := ⟨1, ![100000]⟩
abbrev S320x64 : Shape := ⟨2, ![320, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S1x1 : Shape := ⟨2, ![1, 1]⟩

abbrev nBuf : Space → Nat
  | .hbm => 137
  | .vmem => 0
  | .smem => 0
  | _ => 0

abbrev hbmTy0_0 (i : Nat) : BufTy := match i % 128 with
  | 0 => ⟨S100000x320, .f32⟩
  | 1 => ⟨S2x3200000, .i32⟩
  | 2 => ⟨S100000, .i32⟩
  | 3 => ⟨S320x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S100000, .i32⟩
  | 12 => ⟨S1x3200000, .i32⟩
  | 13 => ⟨S3200000, .i32⟩
  | 14 => ⟨S3300000, .i32⟩
  | 15 => ⟨S1x3200000, .i32⟩
  | 16 => ⟨S3200000, .i32⟩
  | 17 => ⟨S3300000, .i32⟩
  | 18 => ⟨S_, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S3300000, .i32⟩
  | 34 => ⟨S3300000, .i1⟩
  | 35 => ⟨S_, .i32⟩
  | 36 => ⟨S3300000, .i32⟩
  | 37 => ⟨S3300000, .i32⟩
  | 38 => ⟨S3300000, .i32⟩
  | 39 => ⟨S3300000x1, .i32⟩
  | 40 => ⟨S3300000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S3300000, .f32⟩
  | 51 => ⟨S100000x64, .f32⟩
  | 52 => ⟨S_, .i32⟩
  | 53 => ⟨S3300000, .i32⟩
  | 54 => ⟨S3300000, .i1⟩
  | 55 => ⟨S_, .i32⟩
  | 56 => ⟨S3300000, .i32⟩
  | 57 => ⟨S3300000, .i32⟩
  | 58 => ⟨S3300000, .i32⟩
  | 59 => ⟨S3300000x1, .i32⟩
  | 60 => ⟨S3300000x64, .f32⟩
  | 61 => ⟨S3300000x1, .f32⟩
  | 62 => ⟨S3300000x64, .f32⟩
  | 63 => ⟨S3300000x64, .f32⟩
  | 64 => ⟨S_, .f32⟩
  | 65 => ⟨S100000x64, .f32⟩
  | 66 => ⟨S3300000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S_, .i32⟩
  | 76 => ⟨S3300000, .i32⟩
  | 77 => ⟨S3300000, .i1⟩
  | 78 => ⟨S_, .i32⟩
  | 79 => ⟨S3300000, .i32⟩
  | 80 => ⟨S3300000, .i32⟩
  | 81 => ⟨S3300000, .i32⟩
  | 82 => ⟨S3300000x1, .i32⟩
  | 83 => ⟨S3300000x64, .f32⟩
  | 84 => ⟨S3300000x1, .f32⟩
  | 85 => ⟨S3300000x64, .f32⟩
  | 86 => ⟨S3300000x64, .f32⟩
  | 87 => ⟨S_, .f32⟩
  | 88 => ⟨S100000x64, .f32⟩
  | 89 => ⟨S3300000x1, .i32⟩
  | 90 => ⟨S100000x64, .f32⟩
  | 91 => ⟨S1x64, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S100000x64, .f32⟩
  | 98 => ⟨S_, .i32⟩
  | 99 => ⟨S3300000, .i32⟩
  | 100 => ⟨S3300000, .i1⟩
  | 101 => ⟨S_, .i32⟩
  | 102 => ⟨S3300000, .i32⟩
  | 103 => ⟨S3300000, .i32⟩
  | 104 => ⟨S3300000, .i32⟩
  | 105 => ⟨S3300000x1, .i32⟩
  | 106 => ⟨S3300000x64, .f32⟩
  | 107 => ⟨S3300000x1, .f32⟩
  | 108 => ⟨S3300000x64, .f32⟩
  | 109 => ⟨S3300000x64, .f32⟩
  | 110 => ⟨S_, .f32⟩
  | 111 => ⟨S100000x64, .f32⟩
  | 112 => ⟨S3300000x1, .i32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S256x64, .f32⟩
  | 119 => ⟨S100000x1, .i32⟩
  | 120 => ⟨S256x64, .f32⟩
  | 121 => ⟨S_, .f32⟩
  | 122 => ⟨S100000, .f32⟩
  | 123 => ⟨S_, .f32⟩
  | 124 => ⟨S256, .f32⟩
  | 125 => ⟨S100000x1, .i32⟩
  | 126 => ⟨S256, .f32⟩
  | 127 => ⟨S_, .f32⟩
  | _ => ⟨S100000x320, .f32⟩

abbrev hbmTy0_1 (i : Nat) : BufTy := match i % 128 with
  | 0 => ⟨S256, .f32⟩
  | 1 => ⟨S256, .f32⟩
  | 2 => ⟨S256x1, .f32⟩
  | 3 => ⟨S256x64, .f32⟩
  | 4 => ⟨S256x64, .f32⟩
  | 5 => ⟨S256x1, .f32⟩
  | 6 => ⟨S1x1, .f32⟩
  | 7 => ⟨S256x1, .f32⟩
  | 8 => ⟨S256x1, .f32⟩
  | _ => ⟨S100000x320, .f32⟩

abbrev hbmTy (i : Nat) : BufTy := match i / 128 with
  | 0 => hbmTy0_0 i
  | 1 => hbmTy0_1 i
  | _ => ⟨S100000x320, .f32⟩

abbrev bufTy : (tb : Table) → Fin (tcTables nBuf tb) → BufTy
  | .hbm, ⟨i, _⟩ => hbmTy i
  | _, _ => ⟨S100000x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_16 : Ref sig .tc := ⟨.hbm, 121, rfl⟩
abbrev main_v86 : Ref sig .tc := ⟨.hbm, 122, rfl⟩
abbrev main_cst_17 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_18 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x320_S320x64_S100000x64_1_0_0_1_n_n_wf : DotDims.WF S100000x320 S320x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x1_S256x1_1_0_0_1_n_n_wf : DotDims.WF S256x64 S64x1 S256x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x320_S320x64_S100000x64_1_0_0_1_n_n : DotDims S100000x320 S320x64 S100000x64 where
  lhsContracting := [1]
  rhsContracting := [0]
  lhsNonContracting := [0]
  rhsNonContracting := [1]
  lhsBatch := []
  rhsBatch := []
  wf := dot_S100000x320_S320x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.KernelFold.lean ====
/-
  The idealized kernel's run, with its final memory NAMED: every weakly fair execution of @main terminates, nothing
  faulting, and every buffer that is not scoped to a region holds, at the end, the contents the fold through @main's
  fourteen segments gives it (the last boundary's valuation): a host stretch applies its operations, a region leaves
  each of its arrays at what its write-backs fold to and every other buffer as it found it. The frame claim forgets
  this reading and keeps only the arguments; the value claim needs it at the result buffer.
-/
import proofs.«110052_j45208825758041_1_alg».proof.Proof.Gen.KernelIdeal.Frame

set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of @main ends with each unscoped buffer at the last boundary's contents. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- The result buffer at the end of the run. -/
theorem run_result : θ_run defs (onTc (τ := τ) (main (F := F))) ⟨m, fun _ => 0, ρ⟩ (fun r => ∀ c : Dev nD,
      r.2.mem ((c.tc : Thread nD τ).loc main_v91) = W14 m ρ c (Proc.devRef .tc main_v91)) :=
  (θ_run defs _ _).mono (fun r h c => h c _ (mem_uc main_v91 (by decide))) (run_fold m ρ)

end Cert.KernelIdeal.Fold

end
-- ==== Proof.Network.lean ====
/-
  The graph-convolution network both programs compute, as ONE function of the eleven argument arrays, built from named
  stages over whole arrays (any float instance; the certificate reads it at the extended reals).

  An edge list e of shape [2, 3200000] gives the source row e[0] and the target row e[1]; both are extended by the
  identity list 0 .. 99999 (one self loop per node). The in-degree of a node counts the extended targets; its weight
  is deg^(-1/2) where the degree is positive and 0 elsewhere; an edge's coefficient is the product of the weights of
  its two ends. A layer projects the node features by a weight matrix, gathers the projected row of every edge's
  source, scales it by the edge's coefficient, sums the scaled rows into the edge's target, and adds a bias row; the
  first two layers are followed by the maximum with zero. The 256 graphs' node rows are then averaged (the node count
  of a graph replaced by 1 where it is smaller) and a last affine map [64] -> [1] is applied.
-/
import proofs.«110052_j45208825758041_1_alg».proof.ReferenceIdeal
import Idealize.ShloMosaic.PureOps.Ideal

noncomputable section

namespace Cert.Gcn

open Idealize.ShloMosaic Cert.ReferenceIdeal

variable {F : FTy → Type} [FloatOps F] [Cert.ReferenceIdeal.Facts]
open Cert.ReferenceIdeal.Facts₀ Cert.ReferenceIdeal.Facts

/-- The contents of an array of shape `s` and element type `e`. -/
abbrev Arr (F : FTy → Type) (s : Shape) (e : EltTy) := (⟨s, e⟩ : BufTy).Contents (Elt F)

/-- The sources of the 3300000 extended edges: row 0 of the edge list, then the nodes 0 .. 99999. -/
def sources (e : Arr F S2x3200000 .i32) : Arr F S3300000 .i32 :=
  concatenate S3300000 0 [⟨S3200000, shapeCast _ (extractStridedSlice S1x3200000 ![0, 0] e slices_S2x3200000_S1x3200000_0_0) shapeCasts_S1x3200000_S3200000⟩, ⟨S100000, iotaInDim S100000 32 0⟩] concatenates_S3200000_S100000_S3300000_d0

/-- The targets of the extended edges: row 1 of the edge list, then the nodes 0 .. 99999. -/
def targets (e : Arr F S2x3200000 .i32) : Arr F S3300000 .i32 :=
  concatenate S3300000 0 [⟨S3200000, shapeCast _ (extractStridedSlice S1x3200000 ![1, 0] e slices_S2x3200000_S1x3200000_1_0) shapeCasts_S1x3200000_S3200000⟩, ⟨S100000, iotaInDim S100000 32 0⟩] concatenates_S3200000_S100000_S3300000_d0

/-- A node index counted from the end (negative) is moved into range: i + 100000 where i < 0, i elsewhere. -/
def wrapped (s : Arr F S3300000 .i32) : Arr F S3300000 .i32 :=
  select (cmpi .slt s (broadcastInDim S3300000 ![] bcast_S_S3300000 (constantI S_ 32 0#32)))
    (addi s (broadcastInDim S3300000 ![] bcast_S_S3300000 (constantI S_ 32 100000#32))) s

/-- The in-degree of every node: 1 summed over the extended edges into each edge's target. -/
def degree (e : Arr F S2x3200000 .i32) : Arr F S100000 .f32 :=
  Host.scatterAdd scatter_S100000_S3300000x1_S3300000_n_0_0_1
    (broadcastInDim S100000 ![] bcast_S_S100000 (constant (F := F) S_ .f32 0x00000000#32))
    (broadcastInDim S3300000x1 ![0] bcast_S3300000_S3300000x1_0 (targets e))
    (broadcastInDim S3300000 ![] bcast_S_S3300000 (constant (F := F) S_ .f32 0x3F800000#32))

/-- A node's weight: deg^(-1/2) where deg > 0, and 0 elsewhere. -/
def weight (e : Arr F S2x3200000 .i32) : Arr F S100000 .f32 :=
  select (cmpf .ogt (degree e) (broadcastInDim S100000 ![] bcast_S_S100000 (constant (F := F) S_ .f32 0x00000000#32)))
    (Host.rsqrt (degree e))
    (broadcastInDim S100000 ![] bcast_S_S100000 (id (constant (F := F) S_ .f32 0x00000000#32)))

/-- An extended edge's coefficient: the weight of its source times the weight of its target. -/
def coefficient (e : Arr F S2x3200000 .i32) : Arr F S3300000 .f32 :=
  mulf (Host.gather gather_S100000_S3300000x1_S3300000_n_0_n_n_0_1_1 (weight e) (broadcastInDim S3300000x1 ![0] bcast_S3300000_S3300000x1_0 (wrapped (sources e))))
    (Host.gather gather_S100000_S3300000x1_S3300000_n_0_n_n_0_1_1 (weight e) (broadcastInDim S3300000x1 ![0] bcast_S3300000_S3300000x1_0 (wrapped (targets e))))

/-- One aggregation over the graph: row `r` of the result is the sum, over the extended edges with target `r`, of the
    edge's coefficient times the row of `h` at the edge's source. -/
def aggregate (h : Arr F S100000x64 .f32) (e : Arr F S2x3200000 .i32) : Arr F S100000x64 .f32 :=
  Host.scatterAdd scatter_S100000x64_S3300000x1_S3300000x64_1_0_0_1
    (broadcastInDim S100000x64 ![] bcast_S_S100000x64 (constant (F := F) S_ .f32 0x00000000#32))
    (broadcastInDim S3300000x1 ![0] bcast_S3300000_S3300000x1_0 (targets e))
    (mulf (Host.gather gather_S100000x64_S3300000x1_S3300000x64_1_0_n_n_0_1_164 h (broadcastInDim S3300000x1 ![0] bcast_S3300000_S3300000x1_0 (wrapped (sources e))))
      (broadcastInDim S3300000x64 ![0, 1] bcast_S3300000x1_S3300000x64_0_1 (broadcastInDim S3300000x1 ![0] bcast_S3300000_S3300000x1_0 (coefficient e))))

/-- A bias vector as a [1, 64] row repeated down the 100000 node rows. -/
def biasRows (b : Arr F S64 .f32) : Arr F S100000x64 .f32 :=
  broadcastInDim S100000x64 ![0, 1] bcast_S1x64_S100000x64_0_1 (broadcastInDim S1x64 ![1] bcast_S64_S1x64_1 b)

/-- The first projection, [100000, 320] · [320, 64]. -/
def project320 (x : Arr F S100000x320 .f32) (w : Arr F S320x64 .f32) : Arr F S100000x64 .f32 :=
  Host.dotGeneral dot_S100000x320_S320x64_S100000x64_1_0_0_1_n_n none x w

/-- A hidden projection, [100000, 64] · [64, 64]. -/
def project64 (h : Arr F S100000x64 .f32) (w : Arr F S64x64 .f32) : Arr F S100000x64 .f32 :=
  Host.dotGeneral dot_S100000x64_S64x64_S100000x64_1_0_0_1_n_n none h w

/-- A layer's epilogue with the maximum with zero, the bias given as a [1, 64] row: max (a + the row on every node row, 0). -/
def biasReluRow (a : Arr F S100000x64 .f32) (r : Arr F S1x64 .f32) : Arr F S100000x64 .f32 :=
  maximumf (addf a (broadcastInDim S100000x64 ![0, 1] bcast_S1x64_S100000x64_0_1 r))
    (broadcastInDim S100000x64 ![] bcast_S_S100000x64 (constant (F := F) S_ .f32 0x00000000#32))

/-- The last layer's epilogue, the bias given as a [1, 64] row: a + the row on every node row. -/
def biasOnlyRow (a : Arr F S100000x64 .f32) (r : Arr F S1x64 .f32) : Arr F S100000x64 .f32 :=
  addf a (broadcastInDim S100000x64 ![0, 1] bcast_S1x64_S100000x64_0_1 r)

/-- A layer's epilogue with the maximum with zero: max (a + bias rows, 0). -/
def biasRelu (a : Arr F S100000x64 .f32) (b : Arr F S64 .f32) : Arr F S100000x64 .f32 :=
  biasReluRow a (broadcastInDim S1x64 ![1] bcast_S64_S1x64_1 b)

/-- The last layer's epilogue: a + bias rows. -/
def biasOnly (a : Arr F S100000x64 .f32) (b : Arr F S64 .f32) : Arr F S100000x64 .f32 :=
  biasOnlyRow a (broadcastInDim S1x64 ![1] bcast_S64_S1x64_1 b)

/-- The mean of the node rows of each of the 256 graphs: the rows summed by graph, divided by the graph's node count
    or by 1 where the count is smaller. -/
def meanPool (h : Arr F S100000x64 .f32) (g : Arr F S100000 .i32) : Arr F S256x64 .f32 :=
  Host.divf
    (Host.scatterAdd scatter_S256x64_S100000x1_S100000x64_1_0_0_1
      (broadcastInDim S256x64 ![] bcast_S_S256x64 (constant (F := F) S_ .f32 0x00000000#32))
      (broadcastInDim S100000x1 ![0] bcast_S100000_S100000x1_0 g) h)
    (broadcastInDim S256x64 ![0, 1] bcast_S256x1_S256x64_0_1 (broadcastInDim S256x1 ![0] bcast_S256_S256x1_0
      (maximumf
        (Host.scatterAdd scatter_S256_S100000x1_S100000_n_0_0_1
          (broadcastInDim S256 ![] bcast_S_S256 (constant (F := F) S_ .f32 0x00000000#32))
          (broadcastInDim S100000x1 ![0] bcast_S100000_S100000x1_0 g)
          (broadcastInDim S100000 ![] bcast_S_S100000 (constant (F := F) S_ .f32 0x3F800000#32)))
        (broadcastInDim S256 ![] bcast_S_S256 (constant (F := F) S_ .f32 0x3F800000#32)))))

/-- The output map with the bias given as a [1, 1] array: [256, 64] · [64, 1] plus that entry on every row. -/
def headRow (p : Arr F S256x64 .f32) (w : Arr F S64x1 .f32) (r : Arr F S1x1 .f32) : Arr F S256x1 .f32 :=
  addf (Host.dotGeneral dot_S256x64_S64x1_S256x1_1_0_0_1_n_n none p w)
    (broadcastInDim S256x1 ![0, 1] bcast_S1x1_S256x1_0_1 r)

/-- The output map, [256, 64] · [64, 1] plus the bias entry on every row. -/
def head (p : Arr F S256x64 .f32) (w : Arr F S64x1 .f32) (b : Arr F S1 .f32) : Arr F S256x1 .f32 :=
  headRow p w (broadcastInDim S1x1 ![1] bcast_S1_S1x1_1 b)

/-- The three layers: the node features entering the pooling. -/
def layers (x : Arr F S100000x320 .f32) (e : Arr F S2x3200000 .i32) (w1 : Arr F S320x64 .f32) (b1 : Arr F S64 .f32)
    (w2 : Arr F S64x64 .f32) (b2 : Arr F S64 .f32) (w3 : Arr F S64x64 .f32) (b3 : Arr F S64 .f32) : Arr F S100000x64 .f32 :=
  biasOnly (aggregate (project64 (biasRelu (aggregate (project64 (biasRelu (aggregate (project320 x w1) e) b1) w2) e) b2) w3) e) b3

/-- The whole network. -/
def gcn (x : Arr F S100000x320 .f32) (e : Arr F S2x3200000 .i32) (g : Arr F S100000 .i32) (w1 : Arr F S320x64 .f32) (b1 : Arr F S64 .f32)
    (w2 : Arr F S64x64 .f32) (b2 : Arr F S64 .f32) (w3 : Arr F S64x64 .f32) (b3 : Arr F S64 .f32) (wl : Arr F S64x1 .f32) (bl : Arr F S1 .f32) :
    Arr F S256x1 .f32 :=
  head (meanPool (layers x e w1 b1 w2 b2 w3 b3) g) wl bl

end Cert.Gcn

end
-- ==== Proof.LibConcatCongr.lean ====
/-
  A concatenation of two parts depends on the parts' values only — as a CONGRUENCE rule.

  A two-part concatenation `concatenate t ax [⟨s₁, a⟩, ⟨s₂, b⟩] h` carries a side condition `h` whose statement
  mentions the list of parts (through the parts' shapes), so a simplification's automatic congruence does not descend
  into the list, and rewrite rules never reach the operands `a`, `b` standing inside it. Declared a congruence rule
  where it is needed (`attribute [local congr] Idealize.ShloMosaic.concatenate_pair_congr`), this lemma makes the
  simplification rewrite the two operands like any other argument: reading a list of host operations back as one
  composed term then also rewrites what a concatenation joins, instead of leaving the operands as unread buffer
  contents after a prefix of the operations.
-/
import Idealize.ShloMosaic.Lib.Pipeline.Value

noncomputable section

namespace Idealize.ShloMosaic

/-- A concatenation of two parts depends on the parts' values only: equal first parts and equal second parts give
    equal concatenations, the side condition (which speaks of the parts' shapes alone) being the same. -/
theorem concatenate_pair_congr {α : Type} {t : Shape} {ax : Fin t.rank} {s₁ s₂ : Shape}
    {a a' : s₁.Idx → α} {b b' : s₂.Idx → α} (h : Shape.Concatenates [s₁, s₂] t ax) (ha : a = a') (hb : b = b') :
    concatenate t ax [⟨s₁, a⟩, ⟨s₂, b⟩] h = concatenate t ax [⟨s₁, a'⟩, ⟨s₂, b'⟩] h := by
  subst ha hb; rfl

end Idealize.ShloMosaic

end
-- ==== Proof.LibRowCast.lean ====
/-
  A vector laid out as a one-row matrix, two ways.

  A length-n vector reshaped to shape [1, n] and the same vector placed along axis 1 of a [1, n] array by a
  broadcast are one array: each reads, at (0, j), the vector's entry j. (A reshape keeps the row-major order, and
  the row-major position of (0, j) in [1, n] is j; the broadcast reads the vector at the coordinate of the axis it was
  placed on — for n = 1 at its only entry, which is also entry j = 0.)
-/
import Idealize.ShloMosaic.Lib.Pipeline.Value

noncomputable section

namespace Idealize.ShloMosaic

/-- A vector of length n viewed as a [1, n] row is the vector placed along axis 1 of that shape: both read, at (0, j),
    the vector's entry j. For any length and element type. -/
theorem shapeCast_row_eq_broadcastInDim {α : Type} {n : Nat} (x : (⟨1, ![n]⟩ : Shape).Idx → α)
    (h : (⟨1, ![n]⟩ : Shape).ShapeCasts ⟨1 + 1, Matrix.vecCons 1 ![n]⟩)
    (h' : (⟨1, ![n]⟩ : Shape).BroadcastsInDim ⟨1 + 1, Matrix.vecCons 1 ![n]⟩ ![1]) :
    shapeCast ⟨1 + 1, Matrix.vecCons 1 ![n]⟩ x h = broadcastInDim ⟨1 + 1, Matrix.vecCons 1 ![n]⟩ ![1] h' x := by
  funext j
  refine (shapeCast_addUnit_apply ![n] x h j).trans (broadcastInDim_apply ![1] h' x j (fun a => j a.succ) ?_).symm
  intro a
  match a with
  | ⟨0, _⟩ =>
    show (j 1).val = if n = 1 then 0 else (j 1).val
    split
    · rename_i hn; have := (j 1).isLt; simp at this; omega
    · rfl

end Idealize.ShloMosaic

end
-- ==== Proof.KernelStretches.lean ====
/-
  The idealized kernel's host stretches, read back: what each stretch of host operations between two regions leaves
  in the buffers the next region (or the next stretch) reads, as the network's stages (Network.lean) of what the
  stretch finds in the buffers it reads. Every statement is over an arbitrary valuation of the buffers at the
  stretch's entry; the two programs share these operations, so each stage is the reference's own term.

  The stretches: the index lists (sources, targets), the in-degree test and its inverse square root; the selection
  between them (a called function); the edge coefficients; then, three times, one aggregation over the graph and
  the bias vector laid out as a [1, 64] row; and last the mean over each graph and the head's bias as a [1, 1] array.
-/
import proofs.«110052_j45208825758041_1_alg».proof.Proof.Gen.KernelIdeal.Launch
import proofs.«110052_j45208825758041_1_alg».proof.Proof.Gen.ReferenceIdeal
import proofs.«110052_j45208825758041_1_alg».proof.Proof.Network
import proofs.«110052_j45208825758041_1_alg».proof.Proof.LibConcatCongr
import proofs.«110052_j45208825758041_1_alg».proof.Proof.LibRowCast
import Idealize.ShloMosaic.Lib.StableHlo.Run
import Idealize.ShloMosaic.PureOps.Ideal

noncomputable section

namespace Cert.KernelIdeal.Stretch

open Idealize.ShloMosaic Idealize.ShloMosaic.TcCoe Idealize.ShloMosaic.StableHlo Cert.KernelIdeal Cert.KernelIdeal.Gen

attribute [local congr] Idealize.ShloMosaic.concatenate_pair_congr

variable (W : Valuation τ sig (Elt Ideal))

/-! ## The first stretch: index lists, degree test, inverse square root -/

/-- Where a node's in-degree is positive. -/
def degreePositive (e : Cert.Gcn.Arr Ideal Cert.ReferenceIdeal.S2x3200000 .i32) : Cert.Gcn.Arr Ideal Cert.ReferenceIdeal.S100000 .i1 :=
  show IVec Cert.ReferenceIdeal.S100000 1 from
  cmpf .ogt (Cert.Gcn.degree (F := Ideal) e) (broadcastInDim Cert.ReferenceIdeal.S100000 ![] Cert.ReferenceIdeal.Facts₀.bcast_S_S100000 (constant (F := Ideal) Cert.ReferenceIdeal.S_ .f32 0x00000000#32))

/-- The in-degrees to the power -1/2. -/
def degreeRsqrt (e : Cert.Gcn.Arr Ideal Cert.ReferenceIdeal.S2x3200000 .i32) : Cert.Gcn.Arr Ideal Cert.ReferenceIdeal.S100000 .f32 :=
  show FVec Ideal Cert.ReferenceIdeal.S100000 .f32 from Host.rsqrt (Cert.Gcn.degree (F := Ideal) e)

/-- The scalar zero. -/
def zeroScalar : Cert.Gcn.Arr Ideal Cert.ReferenceIdeal.S_ .f32 := constant (F := Ideal) Cert.ReferenceIdeal.S_ .f32 0x00000000#32

/-- A node's weight is the selection, by the degree test, between the inverse square root and zero. -/
theorem weight_eq (e : Cert.Gcn.Arr Ideal Cert.ReferenceIdeal.S2x3200000 .i32) :
    Cert.Gcn.weight (F := Ideal) e = select (degreePositive e) (degreeRsqrt e) (broadcastInDim Cert.ReferenceIdeal.S100000 ![] Cert.ReferenceIdeal.Facts₀.bcast_S_S100000 (id zeroScalar)) := rfl

theorem sources0 : StableHlo.after (hostOps0 (F := Ideal)) W (Proc.devRef .tc main_v3) = Cert.Gcn.sources (W (Proc.devRef .tc main_arg1)) := by
  after_results_simp
  rfl

theorem targets0 : StableHlo.after (hostOps0 (F := Ideal)) W (Proc.devRef .tc main_v6) = Cert.Gcn.targets (W (Proc.devRef .tc main_arg1)) := by
  after_results_simp
  rfl

theorem positive0 : StableHlo.after (hostOps0 (F := Ideal)) W (Proc.devRef .tc main_v12) = degreePositive (W (Proc.devRef .tc main_arg1)) := by
  after_results_simp
  rfl

theorem rsqrt0 : StableHlo.after (hostOps0 (F := Ideal)) W (Proc.devRef .tc main_v13) = degreeRsqrt (W (Proc.devRef .tc main_arg1)) := by
  after_results_simp
  rfl

theorem zero0 : StableHlo.after (hostOps0 (F := Ideal)) W (Proc.devRef .tc main_cst_2) = zeroScalar := by
  after_results_simp
  rfl

/-! ## The second stretch: the selection -/

theorem select01 : StableHlo.after (hostOps0_1 (F := Ideal)) W (Proc.devRef .tc main_v14)
    = (select (W (Proc.devRef .tc main_v12)) (W (Proc.devRef .tc main_v13)) (broadcastInDim S100000 ![] Facts₀.bcast_S_S100000 (id (W (Proc.devRef .tc main_cst_2)))) : FVec Ideal S100000 .f32) := by
  after_results_simp
  rfl

/-! ## The third stretch: an edge's coefficient from the two ends' weights -/

theorem coefficient02 (e : Cert.Gcn.Arr Ideal Cert.ReferenceIdeal.S2x3200000 .i32)
    (hw : W (Proc.devRef .tc main_v14) = Cert.Gcn.weight e) (hs : W (Proc.devRef .tc main_v3) = Cert.Gcn.sources e)
    (ht : W (Proc.devRef .tc main_v6) = Cert.Gcn.targets e) :
    StableHlo.after (hostOps0_2 (F := Ideal)) W (Proc.devRef .tc main_v29) = Cert.Gcn.coefficient e := by
  after_results_simp
  rw [hw, hs, ht]
  rfl

/-! ## The stretches between the layers' regions: one aggregation, and the bias as a row -/

theorem aggregate1 (e : Cert.Gcn.Arr Ideal Cert.ReferenceIdeal.S2x3200000 .i32) (h : Cert.Gcn.Arr Ideal Cert.ReferenceIdeal.S100000x64 .f32)
    (hs : W (Proc.devRef .tc main_v3) = Cert.Gcn.sources e) (ht : W (Proc.devRef .tc main_v6) = Cert.Gcn.targets e)
    (hc : W (Proc.devRef .tc main_v29) = Cert.Gcn.coefficient e) (hh : W (Proc.devRef .tc main_v30) = h) :
    StableHlo.after (hostOps1 (F := Ideal)) W (Proc.devRef .tc main_v43) = Cert.Gcn.aggregate h e := by
  after_results_simp
  rw [hs, ht, hc, hh]
  rfl

theorem row1 : StableHlo.after (hostOps1 (F := Ideal)) W (Proc.devRef .tc main_v44)
    = broadcastInDim Cert.ReferenceIdeal.S1x64 ![1] Cert.ReferenceIdeal.Facts₀.bcast_S64_S1x64_1 (W (Proc.devRef .tc main_arg4)) := by
  after_results_simp
  exact shapeCast_row_eq_broadcastInDim _ _ _

theorem aggregate3 (e : Cert.Gcn.Arr Ideal Cert.ReferenceIdeal.S2x3200000 .i32) (h : Cert.Gcn.Arr Ideal Cert.ReferenceIdeal.S100000x64 .f32)
    (hs : W (Proc.devRef .tc main_v3) = Cert.Gcn.sources e) (ht : W (Proc.devRef .tc main_v6) = Cert.Gcn.targets e)
    (hc : W (Proc.devRef .tc main_v29) = Cert.Gcn.coefficient e) (hh : W (Proc.devRef .tc main_v46) = h) :
    StableHlo.after (hostOps3 (F := Ideal)) W (Proc.devRef .tc main_v59) = Cert.Gcn.aggregate h e := by
  after_results_simp
  rw [hs, ht, hc, hh]
  rfl

theorem row3 : StableHlo.after (hostOps3 (F := Ideal)) W (Proc.devRef .tc main_v60)
    = broadcastInDim Cert.ReferenceIdeal.S1x64 ![1] Cert.ReferenceIdeal.Facts₀.bcast_S64_S1x64_1 (W (Proc.devRef .tc main_arg6)) := by
  after_results_simp
  exact shapeCast_row_eq_broadcastInDim _ _ _

theorem aggregate5 (e : Cert.Gcn.Arr Ideal Cert.ReferenceIdeal.S2x3200000 .i32) (h : Cert.Gcn.Arr Ideal Cert.ReferenceIdeal.S100000x64 .f32)
    (hs : W (Proc.devRef .tc main_v3) = Cert.Gcn.sources e) (ht : W (Proc.devRef .tc main_v6) = Cert.Gcn.targets e)
    (hc : W (Proc.devRef .tc main_v29) = Cert.Gcn.coefficient e) (hh : W (Proc.devRef .tc main_v62) = h) :
    StableHlo.after (hostOps5 (F := Ideal)) W (Proc.devRef .tc main_v75) = Cert.Gcn.aggregate h e := by
  after_results_simp
  rw [hs, ht, hc, hh]
  rfl

theorem row5 : StableHlo.after (hostOps5 (F := Ideal)) W (Proc.devRef .tc main_v76)
    = broadcastInDim Cert.ReferenceIdeal.S1x64 ![1] Cert.ReferenceIdeal.Facts₀.bcast_S64_S1x64_1 (W (Proc.devRef .tc main_arg8)) := by
  after_results_simp
  exact shapeCast_row_eq_broadcastInDim _ _ _

/-! ## The last stretch: the mean over each graph, and the head's bias as a [1, 1] array -/

theorem pool6 (h : Cert.Gcn.Arr Ideal Cert.ReferenceIdeal.S100000x64 .f32) (g : Cert.Gcn.Arr Ideal Cert.ReferenceIdeal.S100000 .i32)
    (hh : W (Proc.devRef .tc main_v77) = h) (hg : W (Proc.devRef .tc main_arg2) = g) :
    StableHlo.after (hostOps6 (F := Ideal)) W (Proc.devRef .tc main_v89) = Cert.Gcn.meanPool h g := by
  after_results_simp
  rw [hh, hg]
  rfl

theorem row6 : StableHlo.after (hostOps6 (F := Ideal)) W (Proc.devRef .tc main_v90)
    = broadcastInDim Cert.ReferenceIdeal.S1x1 ![1] Cert.ReferenceIdeal.Facts₀.bcast_S1_S1x1_1 (W (Proc.devRef .tc main_arg10)) := by
  after_results_simp
  exact shapeCast_row_eq_broadcastInDim _ _ _

end Cert.KernelIdeal.Stretch

end
-- ==== Proof.KernelKept.lean ====
/-
  What the kernel program's seven stretches of host operations write, and that a buffer a stretch does not write holds
  after the stretch what it held before: each operation rewrites its one result buffer and leaves every other buffer, so
  a reference outside the list of a stretch's result buffers keeps its contents through the whole stretch, from any
  contents of the buffers before it.
-/
import proofs.«110052_j45208825758041_1_alg».proof.Proof.Gen.KernelIdeal.Launch
import Idealize.ShloMosaic.Lib.StableHlo.Run

noncomputable section

namespace Cert.KernelIdeal.Kept

open Idealize.ShloMosaic Idealize.ShloMosaic.TcCoe Idealize.ShloMosaic.StableHlo Cert.KernelIdeal Cert.KernelIdeal.Gen

variable {F : FTy → Type} [FloatOps F]

/-- The buffers written by the stretch `hostOps0` (the extended edge lists, the in-degrees and their inverse square roots), in the order of its operations. -/
def written0 : List (Ref sig .tc) := [main_v0, main_v1, main_v2, main_v3, main_v4, main_v5, main_v6, main_cst, main_v7, main_cst_0, main_v8, main_v9, main_v10, main_cst_1, main_v11, main_v12, main_v13, main_cst_2]

/-- Every operation of `hostOps0` writes a buffer of `written0`. -/
theorem writes0 : (hostOps0 : List (HloOp τ sig (Elt F))).Forall fun op => op.writes ⊆ (written0.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

/-- A buffer that `hostOps0` does not write keeps its contents through it. -/
theorem kept0 (V : Valuation τ sig (Elt F)) (r : Ref sig .tc) (hr : r ∉ written0) :
    StableHlo.after (hostOps0 (F := F)) V (Proc.devRef .tc r) = V (Proc.devRef .tc r) :=
  after_of_writes_sub hostOps0 V writes0 hr

/-- The buffers written by the stretch `hostOps0_1` (the node weights (the selection between the inverse square root and zero)), in the order of its operations. -/
def written0_1 : List (Ref sig .tc) := [main_call0_v0, main_call0_v1, main_v14]

/-- Every operation of `hostOps0_1` writes a buffer of `written0_1`. -/
theorem writes0_1 : (hostOps0_1 : List (HloOp τ sig (Elt F))).Forall fun op => op.writes ⊆ (written0_1.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

/-- A buffer that `hostOps0_1` does not write keeps its contents through it. -/
theorem kept0_1 (V : Valuation τ sig (Elt F)) (r : Ref sig .tc) (hr : r ∉ written0_1) :
    StableHlo.after (hostOps0_1 (F := F)) V (Proc.devRef .tc r) = V (Proc.devRef .tc r) :=
  after_of_writes_sub hostOps0_1 V writes0_1 hr

/-- The buffers written by the stretch `hostOps0_2` (the edge coefficients), in the order of its operations. -/
def written0_2 : List (Ref sig .tc) := [main_c, main_v15, main_v16, main_c_3, main_v17, main_v18, main_v19, main_v20, main_v21, main_c_4, main_v22, main_v23, main_c_5, main_v24, main_v25, main_v26, main_v27, main_v28, main_v29]

/-- Every operation of `hostOps0_2` writes a buffer of `written0_2`. -/
theorem writes0_2 : (hostOps0_2 : List (HloOp τ sig (Elt F))).Forall fun op => op.writes ⊆ (written0_2.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

/-- A buffer that `hostOps0_2` does not write keeps its contents through it. -/
theorem kept0_2 (V : Valuation τ sig (Elt F)) (r : Ref sig .tc) (hr : r ∉ written0_2) :
    StableHlo.after (hostOps0_2 (F := F)) V (Proc.devRef .tc r) = V (Proc.devRef .tc r) :=
  after_of_writes_sub hostOps0_2 V writes0_2 hr

/-- The buffers written by the stretch `hostOps1` (the first layer's aggregation and its bias row), in the order of its operations. -/
def written1 : List (Ref sig .tc) := [main_c_6, main_v31, main_v32, main_c_7, main_v33, main_v34, main_v35, main_v36, main_v37, main_v38, main_v39, main_v40, main_cst_8, main_v41, main_v42, main_v43, main_v44]

/-- Every operation of `hostOps1` writes a buffer of `written1`. -/
theorem writes1 : (hostOps1 : List (HloOp τ sig (Elt F))).Forall fun op => op.writes ⊆ (written1.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

/-- A buffer that `hostOps1` does not write keeps its contents through it. -/
theorem kept1 (V : Valuation τ sig (Elt F)) (r : Ref sig .tc) (hr : r ∉ written1) :
    StableHlo.after (hostOps1 (F := F)) V (Proc.devRef .tc r) = V (Proc.devRef .tc r) :=
  after_of_writes_sub hostOps1 V writes1 hr

/-- The buffers written by the stretch `hostOps3` (the second layer's aggregation and its bias row), in the order of its operations. -/
def written3 : List (Ref sig .tc) := [main_c_9, main_v47, main_v48, main_c_10, main_v49, main_v50, main_v51, main_v52, main_v53, main_v54, main_v55, main_v56, main_cst_11, main_v57, main_v58, main_v59, main_v60]

/-- Every operation of `hostOps3` writes a buffer of `written3`. -/
theorem writes3 : (hostOps3 : List (HloOp τ sig (Elt F))).Forall fun op => op.writes ⊆ (written3.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

/-- A buffer that `hostOps3` does not write keeps its contents through it. -/
theorem kept3 (V : Valuation τ sig (Elt F)) (r : Ref sig .tc) (hr : r ∉ written3) :
    StableHlo.after (hostOps3 (F := F)) V (Proc.devRef .tc r) = V (Proc.devRef .tc r) :=
  after_of_writes_sub hostOps3 V writes3 hr

/-- The buffers written by the stretch `hostOps5` (the third layer's aggregation and its bias row), in the order of its operations. -/
def written5 : List (Ref sig .tc) := [main_c_12, main_v63, main_v64, main_c_13, main_v65, main_v66, main_v67, main_v68, main_v69, main_v70, main_v71, main_v72, main_cst_14, main_v73, main_v74, main_v75, main_v76]

/-- Every operation of `hostOps5` writes a buffer of `written5`. -/
theorem writes5 : (hostOps5 : List (HloOp τ sig (Elt F))).Forall fun op => op.writes ⊆ (written5.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

/-- A buffer that `hostOps5` does not write keeps its contents through it. -/
theorem kept5 (V : Valuation τ sig (Elt F)) (r : Ref sig .tc) (hr : r ∉ written5) :
    StableHlo.after (hostOps5 (F := F)) V (Proc.devRef .tc r) = V (Proc.devRef .tc r) :=
  after_of_writes_sub hostOps5 V writes5 hr

/-- The buffers written by the stretch `hostOps6` (the sums and node counts per graph, their quotient, and the output bias entry), in the order of its operations. -/
def written6 : List (Ref sig .tc) := [main_cst_15, main_v78, main_v79, main_v80, main_cst_16, main_v81, main_cst_17, main_v82, main_v83, main_v84, main_cst_18, main_v85, main_v86, main_v87, main_v88, main_v89, main_v90]

/-- Every operation of `hostOps6` writes a buffer of `written6`. -/
theorem writes6 : (hostOps6 : List (HloOp τ sig (Elt F))).Forall fun op => op.writes ⊆ (written6.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

/-- A buffer that `hostOps6` does not write keeps its contents through it. -/
theorem kept6 (V : Valuation τ sig (Elt F)) (r : Ref sig .tc) (hr : r ∉ written6) :
    StableHlo.after (hostOps6 (F := F)) V (Proc.devRef .tc r) = V (Proc.devRef .tc r) :=
  after_of_writes_sub hostOps6 V writes6 hr

end Cert.KernelIdeal.Kept

end
-- ==== Proof.ProjectionRegions.lean ====
/-
  The three projection regions of the kernel (regions 0, 2 and 4) leave the whole matrix products of the network.

  Each region walks 20 grid points. At point t its body reads the block of rows 5000·t .. 5000·t+4999 of the node
  features (320 columns in region 0, 64 in regions 2 and 4) and the whole weight matrix, and stores their product into
  the block of the same rows of the result: at the extended reals the two narrowing format changes are the identity and
  the matrix product into the zero accumulator is entry (r, j) ↦ Σ_k x(r,k)·w(k,j). The network's projection is the
  product of the whole arrays, entry (i, j) ↦ Σ_k x(i,k)·w(k,j). Rows of a product are products of rows: row r of the
  block product at point t is row 5000·t + r of the whole product, so what point t writes back is block t of the whole
  product; row i lies in the block of point i / 5000, so the blocks cover the array.
-/
import proofs.«110052_j45208825758041_1_alg».proof.Proof.Network
import proofs.«110052_j45208825758041_1_alg».proof.Proof.Gen.ReferenceIdeal
import proofs.«110052_j45208825758041_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Regions

open Idealize.ShloMosaic Idealize.ShloMosaic.TcCoe Idealize.SL.Sem
open Idealize.ShloMosaic.Pipeline (Dat)
open Cert.KernelIdeal

/-- Entry (r, k) of a matrix with R rows and K columns. -/
abbrev at2 {R K : Nat} (r : Fin R) (k : Fin K) : (⟨2, ![R, K]⟩ : Shape).Idx := ValueIdx.ix2 r k

/-- The origin of a rank-2 rectangle. -/
theorem origin2 : (![0, 0] : Fin 2 → Nat) = fun _ => 0 := funext fun a => by fin_cases a <;> rfl

/-! ## The two products at an entry -/

/-- The body's product of a block of 5000 rows with the [320, 64] weights, at an entry: Σ_k x(r,k)·w(k,j). -/
theorem blockProduct320 (x0 : FVec Ideal S5000x320 .f32) (x1 : FVec Ideal S320x64 .f32) (r : Fin 5000) (j : Fin 64) :
    Gen.k0_pay1 (F := Ideal) x0 x1 (at2 r j) = ∑ k : Fin 320, x0 (at2 r k) * x1 (at2 k j) := by
  unfold Gen.k0_pay1
  simp only [matmul]
  rw [Ideal.matmul_constant_zero_apply, ← Equiv.sum_comp (ValueIdx.contrEquiv1 dot_S5000x320_S320x64_S5000x64_1_0_0_1_n_n 320 rfl rfl).symm]
  refine Finset.sum_congr rfl fun k _ => ?_
  have hk := ValueIdx.contrEquiv1_symm_val dot_S5000x320_S320x64_S5000x64_1_0_0_1_n_n 320 rfl rfl k
  have el : dot_S5000x320_S320x64_S5000x64_1_0_0_1_n_n.lhsIdx (at2 r j) ((ValueIdx.contrEquiv1 dot_S5000x320_S320x64_S5000x64_1_0_0_1_n_n 320 rfl rfl).symm k) = at2 r k :=
    funext fun a => Fin.ext (by
      match a with
      | ⟨0, _⟩ =>
        show (dot_S5000x320_S320x64_S5000x64_1_0_0_1_n_n.lhsIdx (at2 r j) _ 0).val = r.val
        unfold DotDims.lhsIdx
        rw [dif_neg (show ¬(0 : Fin S5000x320.rank) ∈ dot_S5000x320_S320x64_S5000x64_1_0_0_1_n_n.lhsBatch by decide), dif_pos (show (0 : Fin S5000x320.rank) ∈ dot_S5000x320_S320x64_S5000x64_1_0_0_1_n_n.lhsNonContracting by decide)]
        rfl
      | ⟨1, _⟩ => exact (dot_S5000x320_S320x64_S5000x64_1_0_0_1_n_n.lhsIdx_val_of_single rfl (at2 r j) _).trans hk)
  have er : dot_S5000x320_S320x64_S5000x64_1_0_0_1_n_n.rhsIdx (at2 r j) ((ValueIdx.contrEquiv1 dot_S5000x320_S320x64_S5000x64_1_0_0_1_n_n 320 rfl rfl).symm k) = at2 k j :=
    funext fun a => Fin.ext (by
      match a with
      | ⟨0, _⟩ => exact (dot_S5000x320_S320x64_S5000x64_1_0_0_1_n_n.rhsIdx_val_of_single rfl (at2 r j) _).trans hk
      | ⟨1, _⟩ =>
        show (dot_S5000x320_S320x64_S5000x64_1_0_0_1_n_n.rhsIdx (at2 r j) _ 1).val = j.val
        unfold DotDims.rhsIdx
        rw [dif_neg (show ¬(1 : Fin S320x64.rank) ∈ dot_S5000x320_S320x64_S5000x64_1_0_0_1_n_n.rhsBatch by decide), dif_pos (show (1 : Fin S320x64.rank) ∈ dot_S5000x320_S320x64_S5000x64_1_0_0_1_n_n.rhsNonContracting by decide)]
        rfl)
  rw [el, er]
  rfl

/-- The body's product of a block of 5000 rows with the [64, 64] weights, at an entry: Σ_k x(r,k)·w(k,j). -/
theorem blockProduct64 (x0 : FVec Ideal S5000x64 .f32) (x1 : FVec Ideal S64x64 .f32) (r : Fin 5000) (j : Fin 64) :
    Gen.k2_pay1 (F := Ideal) x0 x1 (at2 r j) = ∑ k : Fin 64, x0 (at2 r k) * x1 (at2 k j) := by
  unfold Gen.k2_pay1
  simp only [matmul, shapeCast_self]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (at2 r j) ((ValueIdx.contrEquiv1 dot_S5000x64_S64x64_S5000x64_1_0_0_1_n_n 64 rfl rfl).symm k) = at2 r k :=
    funext fun a => Fin.ext (by
      match a with
      | ⟨0, _⟩ =>
        show (dot_S5000x64_S64x64_S5000x64_1_0_0_1_n_n.lhsIdx (at2 r j) _ 0).val = r.val
        unfold DotDims.lhsIdx
        rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
        rfl
      | ⟨1, _⟩ => exact (dot_S5000x64_S64x64_S5000x64_1_0_0_1_n_n.lhsIdx_val_of_single rfl (at2 r j) _).trans hk)
  have er : dot_S5000x64_S64x64_S5000x64_1_0_0_1_n_n.rhsIdx (at2 r j) ((ValueIdx.contrEquiv1 dot_S5000x64_S64x64_S5000x64_1_0_0_1_n_n 64 rfl rfl).symm k) = at2 k j :=
    funext fun a => Fin.ext (by
      match a with
      | ⟨0, _⟩ => exact (dot_S5000x64_S64x64_S5000x64_1_0_0_1_n_n.rhsIdx_val_of_single rfl (at2 r j) _).trans hk
      | ⟨1, _⟩ =>
        show (dot_S5000x64_S64x64_S5000x64_1_0_0_1_n_n.rhsIdx (at2 r j) _ 1).val = j.val
        unfold DotDims.rhsIdx
        rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
        rfl)
  rw [el, er]
  rfl

/-- The body's product of a block of 5000 rows with the [64, 64] weights, at an entry: Σ_k x(r,k)·w(k,j). -/
theorem blockProduct64' (x0 : FVec Ideal S5000x64 .f32) (x1 : FVec Ideal S64x64 .f32) (r : Fin 5000) (j : Fin 64) :
    Gen.k4_pay1 (F := Ideal) x0 x1 (at2 r j) = ∑ k : Fin 64, x0 (at2 r k) * x1 (at2 k j) := by
  unfold Gen.k4_pay1
  simp only [matmul, shapeCast_self]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (at2 r j) ((ValueIdx.contrEquiv1 dot_S5000x64_S64x64_S5000x64_1_0_0_1_n_n 64 rfl rfl).symm k) = at2 r k :=
    funext fun a => Fin.ext (by
      match a with
      | ⟨0, _⟩ =>
        show (dot_S5000x64_S64x64_S5000x64_1_0_0_1_n_n.lhsIdx (at2 r j) _ 0).val = r.val
        unfold DotDims.lhsIdx
        rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
        rfl
      | ⟨1, _⟩ => exact (dot_S5000x64_S64x64_S5000x64_1_0_0_1_n_n.lhsIdx_val_of_single rfl (at2 r j) _).trans hk)
  have er : dot_S5000x64_S64x64_S5000x64_1_0_0_1_n_n.rhsIdx (at2 r j) ((ValueIdx.contrEquiv1 dot_S5000x64_S64x64_S5000x64_1_0_0_1_n_n 64 rfl rfl).symm k) = at2 k j :=
    funext fun a => Fin.ext (by
      match a with
      | ⟨0, _⟩ => exact (dot_S5000x64_S64x64_S5000x64_1_0_0_1_n_n.rhsIdx_val_of_single rfl (at2 r j) _).trans hk
      | ⟨1, _⟩ =>
        show (dot_S5000x64_S64x64_S5000x64_1_0_0_1_n_n.rhsIdx (at2 r j) _ 1).val = j.val
        unfold DotDims.rhsIdx
        rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
        rfl)
  rw [el, er]
  rfl

/-- The network's [100000, 320] · [320, 64] projection at an entry: Σ_k x(i,k)·w(k,j). -/
theorem project320_apply (x : Cert.Gcn.Arr Ideal Cert.ReferenceIdeal.S100000x320 .f32) (w : Cert.Gcn.Arr Ideal Cert.ReferenceIdeal.S320x64 .f32) (i : Fin 100000) (j : Fin 64) :
    Cert.Gcn.project320 (F := Ideal) x w (at2 i j) = ∑ k : Fin 320, x (at2 i k) * w (at2 k j) := by
  unfold Cert.Gcn.project320
  simp only [Host.dotGeneral]
  rw [Ideal.dotGeneral_apply, ← Equiv.sum_comp (ValueIdx.contrEquiv1 Cert.ReferenceIdeal.dot_S100000x320_S320x64_S100000x64_1_0_0_1_n_n 320 rfl rfl).symm]
  refine Finset.sum_congr rfl fun k _ => ?_
  have hk := ValueIdx.contrEquiv1_symm_val Cert.ReferenceIdeal.dot_S100000x320_S320x64_S100000x64_1_0_0_1_n_n 320 rfl rfl k
  have el : Cert.ReferenceIdeal.dot_S100000x320_S320x64_S100000x64_1_0_0_1_n_n.lhsIdx (at2 i j) ((ValueIdx.contrEquiv1 Cert.ReferenceIdeal.dot_S100000x320_S320x64_S100000x64_1_0_0_1_n_n 320 rfl rfl).symm k) = at2 i k :=
    funext fun a => Fin.ext (by
      match a with
      | ⟨0, _⟩ =>
        show (Cert.ReferenceIdeal.dot_S100000x320_S320x64_S100000x64_1_0_0_1_n_n.lhsIdx (at2 i j) _ 0).val = i.val
        unfold DotDims.lhsIdx
        rw [dif_neg (show ¬(0 : Fin Cert.ReferenceIdeal.S100000x320.rank) ∈ Cert.ReferenceIdeal.dot_S100000x320_S320x64_S100000x64_1_0_0_1_n_n.lhsBatch by decide), dif_pos (show (0 : Fin Cert.ReferenceIdeal.S100000x320.rank) ∈ Cert.ReferenceIdeal.dot_S100000x320_S320x64_S100000x64_1_0_0_1_n_n.lhsNonContracting by decide)]
        rfl
      | ⟨1, _⟩ => exact (Cert.ReferenceIdeal.dot_S100000x320_S320x64_S100000x64_1_0_0_1_n_n.lhsIdx_val_of_single rfl (at2 i j) _).trans hk)
  have er : Cert.ReferenceIdeal.dot_S100000x320_S320x64_S100000x64_1_0_0_1_n_n.rhsIdx (at2 i j) ((ValueIdx.contrEquiv1 Cert.ReferenceIdeal.dot_S100000x320_S320x64_S100000x64_1_0_0_1_n_n 320 rfl rfl).symm k) = at2 k j :=
    funext fun a => Fin.ext (by
      match a with
      | ⟨0, _⟩ => exact (Cert.ReferenceIdeal.dot_S100000x320_S320x64_S100000x64_1_0_0_1_n_n.rhsIdx_val_of_single rfl (at2 i j) _).trans hk
      | ⟨1, _⟩ =>
        show (Cert.ReferenceIdeal.dot_S100000x320_S320x64_S100000x64_1_0_0_1_n_n.rhsIdx (at2 i j) _ 1).val = j.val
        unfold DotDims.rhsIdx
        rw [dif_neg (show ¬(1 : Fin Cert.ReferenceIdeal.S320x64.rank) ∈ Cert.ReferenceIdeal.dot_S100000x320_S320x64_S100000x64_1_0_0_1_n_n.rhsBatch by decide), dif_pos (show (1 : Fin Cert.ReferenceIdeal.S320x64.rank) ∈ Cert.ReferenceIdeal.dot_S100000x320_S320x64_S100000x64_1_0_0_1_n_n.rhsNonContracting by decide)]
        rfl)
  rw [el, er]

/-- The network's [100000, 64] · [64, 64] projection at an entry: Σ_k x(i,k)·w(k,j). -/
theorem project64_apply (x : Cert.Gcn.Arr Ideal Cert.ReferenceIdeal.S100000x64 .f32) (w : Cert.Gcn.Arr Ideal Cert.ReferenceIdeal.S64x64 .f32) (i : Fin 100000) (j : Fin 64) :
    Cert.Gcn.project64 (F := Ideal) x w (at2 i j) = ∑ k : Fin 64, x (at2 i k) * w (at2 k j) := by
  unfold Cert.Gcn.project64
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (at2 i j) ((ValueIdx.contrEquiv1 Cert.ReferenceIdeal.dot_S100000x64_S64x64_S100000x64_1_0_0_1_n_n 64 rfl rfl).symm k) = at2 i k :=
    funext fun a => Fin.ext (by
      match a with
      | ⟨0, _⟩ =>
        show (Cert.ReferenceIdeal.dot_S100000x64_S64x64_S100000x64_1_0_0_1_n_n.lhsIdx (at2 i j) _ 0).val = i.val
        unfold DotDims.lhsIdx
        rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
        rfl
      | ⟨1, _⟩ => exact (Cert.ReferenceIdeal.dot_S100000x64_S64x64_S100000x64_1_0_0_1_n_n.lhsIdx_val_of_single rfl (at2 i j) _).trans hk)
  have er : Cert.ReferenceIdeal.dot_S100000x64_S64x64_S100000x64_1_0_0_1_n_n.rhsIdx (at2 i j) ((ValueIdx.contrEquiv1 Cert.ReferenceIdeal.dot_S100000x64_S64x64_S100000x64_1_0_0_1_n_n 64 rfl rfl).symm k) = at2 k j :=
    funext fun a => Fin.ext (by
      match a with
      | ⟨0, _⟩ => exact (Cert.ReferenceIdeal.dot_S100000x64_S64x64_S100000x64_1_0_0_1_n_n.rhsIdx_val_of_single rfl (at2 i j) _).trans hk
      | ⟨1, _⟩ =>
        show (Cert.ReferenceIdeal.dot_S100000x64_S64x64_S100000x64_1_0_0_1_n_n.rhsIdx (at2 i j) _ 1).val = j.val
        unfold DotDims.rhsIdx
        rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
        rfl)
  rw [el, er]

/-! ## Region 0: the input features times the first weights, x · W1 -/

section Region0
variable (V : (c : Dev nD) → (b : Ref sig .tc) → Buf (Elt Ideal) ((c : Thread nD τ).loc b)) (c : Dev nD)

/-- The printed index maps over the grid: point t takes row block t of the features and of the product, and the one
    block of the weights. -/
theorem blockIndices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product: row r of the block product is row 5000·t + r of the
    whole product, both being Σ_k x(5000·t + r, k)·w(k, j). -/
theorem flushed0 (t : Fin cfg0.N) :
    (Gen.dat0 (F := Ideal) V c).flushed 2 t = ((cfg0.win 2).blk t).view.read (Elt Ideal) (Cert.Gcn.project320 (F := Ideal) (V c main_arg0) (V c main_arg3)) := by
  show (cfg0.win 2).cut (grid0.coords t) ((Gen.dat0 (F := Ideal) V c).after 2 t) = _
  rw [Gen.after0_2]
  unfold Gen.out0_2
  rw [View.canon_unit_zero origin2]
  simp only [View.ld_unit_zero (S := S5000x320) origin2, View.ld_unit_zero (S := S320x64) origin2]
  obtain ⟨e0, e1, e2, e3, e4, e5⟩ := blockIndices0 t
  have ht : t.val < 20 := lt_of_lt_of_eq t.isLt Gen.N_0
  funext y
  obtain ⟨r, j, rfl⟩ : ∃ (r : Fin 5000) (j : Fin 64), y = at2 r j := ⟨y 0, y 1, ValueIdx.eq_ix2 y⟩
  show Gen.k0_pay1 (F := Ideal) (Gen.iblk0 V c 0 t) (Gen.iblk0 V c 1 t) (at2 r j)
    = Cert.Gcn.project320 (F := Ideal) (V c main_arg0) (V c main_arg3) (((cfg0.win 2).blk t).view.emb (at2 r j))
  have hr : r.val < 5000 := r.isLt
  have eo : ((cfg0.win 2).blk t).view.emb (at2 r j) = at2 (⟨5000 * t.val + r.val, by omega⟩ : Fin 100000) j := by
    funext a; apply Fin.ext
    match a with
    | ⟨0, _⟩ => show win0_2.index t (0 : Fin 2) * 5000 + 1 * r.val = 5000 * t.val + r.val; omega
    | ⟨1, _⟩ => show win0_2.index t (1 : Fin 2) * 64 + 1 * j.val = j.val; omega
  rw [eo]
  refine (blockProduct320 _ _ r j).trans ((project320_apply _ _ _ j).trans ?_).symm
  refine Finset.sum_congr rfl fun k _ => ?_
  have h0 : Gen.iblk0 V c 0 t (at2 r k) = V c main_arg0 (at2 (⟨5000 * t.val + r.val, by omega⟩ : Fin 100000) k) := by
    show V c main_arg0 (((cfg0.win 0).blk t).view.emb (at2 r k)) = _
    refine congrArg _ (funext fun a => Fin.ext ?_)
    match a with
    | ⟨0, _⟩ => show win0_0.index t (0 : Fin 2) * 5000 + 1 * r.val = 5000 * t.val + r.val; omega
    | ⟨1, _⟩ => show win0_0.index t (1 : Fin 2) * 320 + 1 * k.val = k.val; omega
  have h1 : Gen.iblk0 V c 1 t (at2 k j) = V c main_arg3 (at2 k j) := by
    show V c main_arg3 (((cfg0.win 1).blk t).view.emb (at2 k j)) = _
    refine congrArg _ (funext fun a => Fin.ext ?_)
    match a with
    | ⟨0, _⟩ => show win0_1.index t (0 : Fin 2) * 320 + 1 * k.val = k.val; omega
    | ⟨1, _⟩ => show win0_1.index t (1 : Fin 2) * 64 + 1 * j.val = j.val; omega
  rw [h0, h1]

/-- An index of the product is in point t's block iff each coordinate is in the block's range on its axis. -/
theorem memBlock0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Row i of the product is written by the point i / 5000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := Gen.N_0
  let t : Fin cfg0.N := ⟨(i 0).val / 5000, by rw [hN]; omega⟩
  obtain ⟨e0, e1, e2, e3, e4, e5⟩ := blockIndices0 t
  have e4' : win0_2.index t (0 : Fin 2) = (i 0).val / 5000 := e4
  refine ⟨t, Gen.flush0_2 t, ?_⟩
  rw [memBlock0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- REGION 0: the array the 20 points leave is the whole product. -/
theorem projection0 : (Gen.dat0 (F := Ideal) V c).arrAt 2 cfg0.N = Cert.Gcn.project320 (F := Ideal) (V c main_arg0) (V c main_arg3) :=
  (Gen.dat0 (F := Ideal) V c).arrAt_eq_of_cover 2 _ (fun t _ => flushed0 V c t) cover0

end Region0

/-! ## Region 2: the first hidden features times the second weights -/

section Region2
variable (V : (c : Dev nD) → (b : Ref sig .tc) → Buf (Elt Ideal) ((c : Thread nD τ).loc b)) (c : Dev nD)

/-- The printed index maps over the grid: point t takes row block t of the features and of the product, and the one
    block of the weights. -/
theorem blockIndices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product: row r of the block product is row 5000·t + r of the
    whole product, both being Σ_k x(5000·t + r, k)·w(k, j). -/
theorem flushed2 (t : Fin cfg2.N) :
    (Gen.dat2 (F := Ideal) V c).flushed 2 t = ((cfg2.win 2).blk t).view.read (Elt Ideal) (Cert.Gcn.project64 (F := Ideal) (V c main_v45) (V c main_arg5)) := by
  show (cfg2.win 2).cut (grid2.coords t) ((Gen.dat2 (F := Ideal) V c).after 2 t) = _
  rw [Gen.after2_2]
  unfold Gen.out2_2
  rw [View.canon_unit_zero origin2]
  simp only [View.ld_unit_zero (S := S5000x64) origin2, View.ld_unit_zero (S := S64x64) origin2]
  obtain ⟨e0, e1, e2, e3, e4, e5⟩ := blockIndices2 t
  have ht : t.val < 20 := lt_of_lt_of_eq t.isLt Gen.N_2
  funext y
  obtain ⟨r, j, rfl⟩ : ∃ (r : Fin 5000) (j : Fin 64), y = at2 r j := ⟨y 0, y 1, ValueIdx.eq_ix2 y⟩
  show Gen.k2_pay1 (F := Ideal) (Gen.iblk2 V c 0 t) (Gen.iblk2 V c 1 t) (at2 r j)
    = Cert.Gcn.project64 (F := Ideal) (V c main_v45) (V c main_arg5) (((cfg2.win 2).blk t).view.emb (at2 r j))
  have hr : r.val < 5000 := r.isLt
  have eo : ((cfg2.win 2).blk t).view.emb (at2 r j) = at2 (⟨5000 * t.val + r.val, by omega⟩ : Fin 100000) j := by
    funext a; apply Fin.ext
    match a with
    | ⟨0, _⟩ => show win2_2.index t (0 : Fin 2) * 5000 + 1 * r.val = 5000 * t.val + r.val; omega
    | ⟨1, _⟩ => show win2_2.index t (1 : Fin 2) * 64 + 1 * j.val = j.val; omega
  rw [eo]
  refine (blockProduct64 _ _ r j).trans ((project64_apply _ _ _ j).trans ?_).symm
  refine Finset.sum_congr rfl fun k _ => ?_
  have h0 : Gen.iblk2 V c 0 t (at2 r k) = V c main_v45 (at2 (⟨5000 * t.val + r.val, by omega⟩ : Fin 100000) k) := by
    show V c main_v45 (((cfg2.win 0).blk t).view.emb (at2 r k)) = _
    refine congrArg _ (funext fun a => Fin.ext ?_)
    match a with
    | ⟨0, _⟩ => show win2_0.index t (0 : Fin 2) * 5000 + 1 * r.val = 5000 * t.val + r.val; omega
    | ⟨1, _⟩ => show win2_0.index t (1 : Fin 2) * 64 + 1 * k.val = k.val; omega
  have h1 : Gen.iblk2 V c 1 t (at2 k j) = V c main_arg5 (at2 k j) := by
    show V c main_arg5 (((cfg2.win 1).blk t).view.emb (at2 k j)) = _
    refine congrArg _ (funext fun a => Fin.ext ?_)
    match a with
    | ⟨0, _⟩ => show win2_1.index t (0 : Fin 2) * 64 + 1 * k.val = k.val; omega
    | ⟨1, _⟩ => show win2_1.index t (1 : Fin 2) * 64 + 1 * j.val = j.val; omega
  rw [h0, h1]

/-- An index of the product is in point t's block iff each coordinate is in the block's range on its axis. -/
theorem memBlock2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- Row i of the product is written by the point i / 5000. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := Gen.N_2
  let t : Fin cfg2.N := ⟨(i 0).val / 5000, by rw [hN]; omega⟩
  obtain ⟨e0, e1, e2, e3, e4, e5⟩ := blockIndices2 t
  have e4' : win2_2.index t (0 : Fin 2) = (i 0).val / 5000 := e4
  refine ⟨t, Gen.flush2_2 t, ?_⟩
  rw [memBlock2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- REGION 2: the array the 20 points leave is the whole product. -/
theorem projection2 : (Gen.dat2 (F := Ideal) V c).arrAt 2 cfg2.N = Cert.Gcn.project64 (F := Ideal) (V c main_v45) (V c main_arg5) :=
  (Gen.dat2 (F := Ideal) V c).arrAt_eq_of_cover 2 _ (fun t _ => flushed2 V c t) cover2

end Region2

/-! ## Region 4: the second hidden features times the third weights -/

section Region4
variable (V : (c : Dev nD) → (b : Ref sig .tc) → Buf (Elt Ideal) ((c : Thread nD τ).loc b)) (c : Dev nD)

/-- The printed index maps over the grid: point t takes row block t of the features and of the product, and the one
    block of the weights. -/
theorem blockIndices4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the whole product: row r of the block product is row 5000·t + r of the
    whole product, both being Σ_k x(5000·t + r, k)·w(k, j). -/
theorem flushed4 (t : Fin cfg4.N) :
    (Gen.dat4 (F := Ideal) V c).flushed 2 t = ((cfg4.win 2).blk t).view.read (Elt Ideal) (Cert.Gcn.project64 (F := Ideal) (V c main_v61) (V c main_arg7)) := by
  show (cfg4.win 2).cut (grid4.coords t) ((Gen.dat4 (F := Ideal) V c).after 2 t) = _
  rw [Gen.after4_2]
  unfold Gen.out4_2
  rw [View.canon_unit_zero origin2]
  simp only [View.ld_unit_zero (S := S5000x64) origin2, View.ld_unit_zero (S := S64x64) origin2]
  obtain ⟨e0, e1, e2, e3, e4, e5⟩ := blockIndices4 t
  have ht : t.val < 20 := lt_of_lt_of_eq t.isLt Gen.N_4
  funext y
  obtain ⟨r, j, rfl⟩ : ∃ (r : Fin 5000) (j : Fin 64), y = at2 r j := ⟨y 0, y 1, ValueIdx.eq_ix2 y⟩
  show Gen.k4_pay1 (F := Ideal) (Gen.iblk4 V c 0 t) (Gen.iblk4 V c 1 t) (at2 r j)
    = Cert.Gcn.project64 (F := Ideal) (V c main_v61) (V c main_arg7) (((cfg4.win 2).blk t).view.emb (at2 r j))
  have hr : r.val < 5000 := r.isLt
  have eo : ((cfg4.win 2).blk t).view.emb (at2 r j) = at2 (⟨5000 * t.val + r.val, by omega⟩ : Fin 100000) j := by
    funext a; apply Fin.ext
    match a with
    | ⟨0, _⟩ => show win4_2.index t (0 : Fin 2) * 5000 + 1 * r.val = 5000 * t.val + r.val; omega
    | ⟨1, _⟩ => show win4_2.index t (1 : Fin 2) * 64 + 1 * j.val = j.val; omega
  rw [eo]
  refine (blockProduct64' _ _ r j).trans ((project64_apply _ _ _ j).trans ?_).symm
  refine Finset.sum_congr rfl fun k _ => ?_
  have h0 : Gen.iblk4 V c 0 t (at2 r k) = V c main_v61 (at2 (⟨5000 * t.val + r.val, by omega⟩ : Fin 100000) k) := by
    show V c main_v61 (((cfg4.win 0).blk t).view.emb (at2 r k)) = _
    refine congrArg _ (funext fun a => Fin.ext ?_)
    match a with
    | ⟨0, _⟩ => show win4_0.index t (0 : Fin 2) * 5000 + 1 * r.val = 5000 * t.val + r.val; omega
    | ⟨1, _⟩ => show win4_0.index t (1 : Fin 2) * 64 + 1 * k.val = k.val; omega
  have h1 : Gen.iblk4 V c 1 t (at2 k j) = V c main_arg7 (at2 k j) := by
    show V c main_arg7 (((cfg4.win 1).blk t).view.emb (at2 k j)) = _
    refine congrArg _ (funext fun a => Fin.ext ?_)
    match a with
    | ⟨0, _⟩ => show win4_1.index t (0 : Fin 2) * 64 + 1 * k.val = k.val; omega
    | ⟨1, _⟩ => show win4_1.index t (1 : Fin 2) * 64 + 1 * j.val = j.val; omega
  rw [h0, h1]

/-- An index of the product is in point t's block iff each coordinate is in the block's range on its axis. -/
theorem memBlock4 (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v62).slice (win4_2.rect t)).set ↔ _
  rw [View.set_slice_whole, Rect.mem_set_unit]
  exact Iff.rfl

/-- Row i of the product is written by the point i / 5000. -/
theorem cover4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 20 := Gen.N_4
  let t : Fin cfg4.N := ⟨(i 0).val / 5000, by rw [hN]; omega⟩
  obtain ⟨e0, e1, e2, e3, e4, e5⟩ := blockIndices4 t
  have e4' : win4_2.index t (0 : Fin 2) = (i 0).val / 5000 := e4
  refine ⟨t, Gen.flush4_2 t, ?_⟩
  rw [memBlock4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- REGION 4: the array the 20 points leave is the whole product. -/
theorem projection4 : (Gen.dat4 (F := Ideal) V c).arrAt 2 cfg4.N = Cert.Gcn.project64 (F := Ideal) (V c main_v61) (V c main_arg7) :=
  (Gen.dat4 (F := Ideal) V c).arrAt_eq_of_cover 2 _ (fun t _ => flushed4 V c t) cover4

end Region4

end Cert.KernelIdeal.Regions

end
-- ==== Proof.EpilogueRegions.lean ====
/-
  The three epilogue regions and the head region of the kernel, each read as ONE function of the arrays it finds.

  Regions 1, 3 and 5 run over 20 grid points. Point t loads rows 5000·t … 5000·t + 4999 of a [100000, 64] array and the
  whole [1, 64] bias row, adds the row to every loaded row (regions 1 and 3 then take the maximum with zero) and stores
  the result to the same rows of the output array. Entry (p, q) of a stored block depends only on entry (p, q) of the
  loaded block and entry (0, q) of the row, so the block is the restriction, to its rows, of the whole-array epilogue
  max (a + row, 0) (or a + row); the 20 blocks fill the 100000 rows, hence the output array is that epilogue.

  Region 6 has one grid point and whole-array blocks: it stores the product [256, 64] · [64, 1] accumulated into zero,
  plus the [1, 1] bias entry on every row. On extended reals the narrowing of the factors is the identity and a product
  accumulated into zero is the sum over the 64 contracted positions, which is the specification's product.
-/
import proofs.«110052_j45208825758041_1_alg».proof.Proof.Gen.KernelIdeal.Frame
import proofs.«110052_j45208825758041_1_alg».proof.Proof.Gen.ReferenceIdeal
import proofs.«110052_j45208825758041_1_alg».proof.Proof.Network
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

/-- The two offsets of a whole-buffer access are zero. -/
theorem zero_offsets : (![0, 0] : Fin 2 → Nat) = fun _ => 0 := funext fun a => by fin_cases a <;> rfl

/-! ## The bias-and-maximum body, entry by entry -/

/-- One entry of what the body stores: the block's entry plus the row's entry in the same column, then the maximum with
    zero — which is the specification's entry wherever the block's entry is the array's and the columns agree. -/
theorem biasRelu_entry (a : Cert.Gcn.Arr Ideal Cert.ReferenceIdeal.S100000x64 .f32) (r : Cert.Gcn.Arr Ideal Cert.ReferenceIdeal.S1x64 .f32)
    (x0 : Vec Ideal S5000x64 .f32) (x1 : Vec Ideal S1x64 .f32) (p : Fin 5000) (p' : Fin 100000) (q : Fin 64)
    (h0 : x0 (ix2 p q) = a (ix2 p' q)) (h1 : x1 = r) :
    k1_pay1 x0 x1 (ix2 p q) = Cert.Gcn.biasReluRow (F := Ideal) a r (ix2 p' q) := by
  unfold k1_pay1 Cert.Gcn.biasReluRow
  rw [maximumf_apply, maximumf_apply, addf_apply, addf_apply, shapeCast_self, shapeCast_self,
    broadcastTo_1b_ab_apply, broadcastInDim_oneRow_apply, h0, h1]
  rfl

/-- The same at any index `j` of the block and any index `i` of the array in the same column. -/
theorem biasRelu_block (a : Cert.Gcn.Arr Ideal Cert.ReferenceIdeal.S100000x64 .f32) (r : Cert.Gcn.Arr Ideal Cert.ReferenceIdeal.S1x64 .f32)
    (x0 : Vec Ideal S5000x64 .f32) (x1 : Vec Ideal S1x64 .f32) (j : S5000x64.Idx) (i : Cert.ReferenceIdeal.S100000x64.Idx)
    (h0 : x0 j = a i) (h1 : x1 = r) (hc : (i 1).val = (j 1).val) :
    k1_pay1 x0 x1 j = Cert.Gcn.biasReluRow (F := Ideal) a r i := by
  obtain ⟨p, q, rfl⟩ : ∃ (p : Fin 5000) (q : Fin 64), j = ix2 p q := ⟨j 0, j 1, eq_ix2 j⟩
  obtain ⟨p', q', rfl⟩ : ∃ (p' : Fin 100000) (q' : Fin 64), i = ix2 p' q' := ⟨i 0, i 1, eq_ix2 i⟩
  have e : q' = q := Fin.ext hc
  subst e
  exact biasRelu_entry a r x0 x1 p p' q' h0 h1

/-- Region 3's body is region 1's: the same operations in the same order. -/
theorem body3_eq_body1 (x0 : Vec Ideal S5000x64 .f32) (x1 : Vec Ideal S1x64 .f32) : k3_pay1 x0 x1 = k1_pay1 x0 x1 := rfl

/-! ## The bias-only body, entry by entry -/

/-- One entry of what region 5's body stores: the block's entry plus the row's entry in the same column. -/
theorem biasOnly_entry (a : Cert.Gcn.Arr Ideal Cert.ReferenceIdeal.S100000x64 .f32) (r : Cert.Gcn.Arr Ideal Cert.ReferenceIdeal.S1x64 .f32)
    (x0 : Vec Ideal S5000x64 .f32) (x1 : Vec Ideal S1x64 .f32) (p : Fin 5000) (p' : Fin 100000) (q : Fin 64)
    (h0 : x0 (ix2 p q) = a (ix2 p' q)) (h1 : x1 = r) :
    k5_pay1 x0 x1 (ix2 p q) = Cert.Gcn.biasOnlyRow (F := Ideal) a r (ix2 p' q) := by
  unfold k5_pay1 Cert.Gcn.biasOnlyRow
  rw [addf_apply, addf_apply, shapeCast_self, shapeCast_self, broadcastTo_1b_ab_apply, broadcastInDim_oneRow_apply, h0, h1]

/-- The same at any index `j` of the block and any index `i` of the array in the same column. -/
theorem biasOnly_block (a : Cert.Gcn.Arr Ideal Cert.ReferenceIdeal.S100000x64 .f32) (r : Cert.Gcn.Arr Ideal Cert.ReferenceIdeal.S1x64 .f32)
    (x0 : Vec Ideal S5000x64 .f32) (x1 : Vec Ideal S1x64 .f32) (j : S5000x64.Idx) (i : Cert.ReferenceIdeal.S100000x64.Idx)
    (h0 : x0 j = a i) (h1 : x1 = r) (hc : (i 1).val = (j 1).val) :
    k5_pay1 x0 x1 j = Cert.Gcn.biasOnlyRow (F := Ideal) a r i := by
  obtain ⟨p, q, rfl⟩ : ∃ (p : Fin 5000) (q : Fin 64), j = ix2 p q := ⟨j 0, j 1, eq_ix2 j⟩
  obtain ⟨p', q', rfl⟩ : ∃ (p' : Fin 100000) (q' : Fin 64), i = ix2 p' q' := ⟨i 0, i 1, eq_ix2 i⟩
  have e : q' = q := Fin.ext hc
  subst e
  exact biasOnly_entry a r x0 x1 p p' q' h0 h1

/-! ## The head body, entry by entry -/

/-- The kernel's and the specification's dimension numbers of the last product are the same record: contract axis 1 of
    the left factor with axis 0 of the right one, no batch axis. -/
theorem head_dims : dot_S256x64_S64x1_S256x1_1_0_0_1_n_n = Cert.ReferenceIdeal.dot_S256x64_S64x1_S256x1_1_0_0_1_n_n := rfl

/-- One entry of what region 6's body stores: the sum over the 64 contracted positions of the products of the two factors
    (the narrowing of the factors is the identity, the accumulator is zero) plus the bias entry — the specification's entry. -/
theorem head_entry (x0 : Vec Ideal S256x64 .f32) (x1 : Vec Ideal S64x1 .f32) (x2 : Vec Ideal S1x1 .f32) (a : Fin 256) (b : Fin 1) :
    k6_pay1 x0 x1 x2 (ix2 a b) = Cert.Gcn.headRow (F := Ideal) x0 x1 x2 (ix2 a b) := by
  unfold k6_pay1 Cert.Gcn.headRow
  rw [addf_apply, addf_apply, shapeCast_self, shapeCast_self, broadcastTo_1b_ab_apply, broadcastInDim_oneRow_apply]
  congr 1
  refine (Ideal.matmul_constant_zero_apply dot_S256x64_S64x1_S256x1_1_0_0_1_n_n none
    (truncf FTy.bf16 (x0 : FVec Ideal S256x64 .f32) bitsLt_bf16_f32) (truncf FTy.bf16 (x1 : FVec Ideal S64x1 .f32) bitsLt_bf16_f32) (ix2 a b)).trans ?_
  refine Eq.trans ?_ (Ideal.dotGeneral_apply Cert.ReferenceIdeal.dot_S256x64_S64x1_S256x1_1_0_0_1_n_n none .single
    (x0 : FVec Ideal Cert.ReferenceIdeal.S256x64 .f32) (x1 : FVec Ideal Cert.ReferenceIdeal.S64x1 .f32) (ix2 a b)).symm
  rw [head_dims]
  rfl

/-- The same at any index `j` of the stored block and the index `i` of the array with the same coordinates, the three
    loaded blocks being the three whole arrays. -/
theorem head_block (p : Cert.Gcn.Arr Ideal Cert.ReferenceIdeal.S256x64 .f32) (w : Cert.Gcn.Arr Ideal Cert.ReferenceIdeal.S64x1 .f32)
    (r : Cert.Gcn.Arr Ideal Cert.ReferenceIdeal.S1x1 .f32)
    (x0 : Vec Ideal S256x64 .f32) (x1 : Vec Ideal S64x1 .f32) (x2 : Vec Ideal S1x1 .f32)
    (h0 : x0 = p) (h1 : x1 = w) (h2 : x2 = r) (j : S256x1.Idx) (i : Cert.ReferenceIdeal.S256x1.Idx)
    (hij : ∀ a : Fin 2, (i a).val = (j a).val) :
    k6_pay1 x0 x1 x2 j = Cert.Gcn.headRow (F := Ideal) p w r i := by
  subst h0 h1 h2
  obtain ⟨a, b, rfl⟩ : ∃ (a : Fin 256) (b : Fin 1), j = ix2 a b := ⟨j 0, j 1, eq_ix2 j⟩
  obtain ⟨a', b', rfl⟩ : ∃ (a' : Fin 256) (b' : Fin 1), i = ix2 a' b' := ⟨i 0, i 1, eq_ix2 i⟩
  have ea : a' = a := Fin.ext (hij 0)
  have eb : b' = b := Fin.ext (hij 1)
  subst ea eb
  exact head_entry x0 x1 x2 a' b'

variable (V : (c : Dev nD) → (b : Ref sig .tc) → Buf (Elt Ideal) ((c : Thread nD τ).loc b)) (c : Dev nD)

/-! ## Region 1: the first layer's epilogue -/

/-- The printed index maps over the 20 grid points: the input block and the output block are the same rows, block `t` at
    point `t`, all 64 columns; the bias row is read whole at every point. -/
theorem index_maps1 : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) = t.val :=
  (by decide +kernel : ∀ t : Fin grid1.N, _)

/-- What point `t` writes back is block `t` of the specification's epilogue of the arrays the region finds. -/
theorem flushed1 (t : Fin cfg1.N) :
    (dat1 (F := Ideal) V c).flushed 2 t
      = ((cfg1.win 2).blk t).view.read (Elt Ideal) (Cert.Gcn.biasReluRow (F := Ideal) (V c main_v43) (V c main_v44)) := by
  show (cfg1.win 2).cut (grid1.coords t) ((dat1 V c).after 2 t) = _
  rw [after1_2]
  unfold out1_2
  rw [View.canon_unit_zero zero_offsets]
  simp only [View.ld_unit_zero (S := S5000x64) zero_offsets, View.ld_unit_zero (S := S1x64) zero_offsets]
  obtain ⟨e0, e1, e2, e3, e4, e5⟩ := index_maps1 t
  funext j
  show k1_pay1 (iblk1 V c 0 t) (iblk1 V c 1 t) j
      = Cert.Gcn.biasReluRow (F := Ideal) (V c main_v43) (V c main_v44) (((cfg1.win 2).blk t).view.emb j)
  refine biasRelu_block _ _ _ _ j _ ?_ ?_ ?_
  · show V c main_v43 (((cfg1.win 0).blk t).view.emb j) = V c main_v43 (((cfg1.win 2).blk t).view.emb j)
    refine congrArg _ (funext fun a => Fin.ext ?_)
    match a with
    | ⟨0, _⟩ =>
      show win1_0.index t (0 : Fin 2) * 5000 + 1 * (j 0).val = win1_2.index t (0 : Fin 2) * 5000 + 1 * (j 0).val
      rw [e0]
    | ⟨1, _⟩ =>
      show win1_0.index t (1 : Fin 2) * 64 + 1 * (j 1).val = win1_2.index t (1 : Fin 2) * 64 + 1 * (j 1).val
      rw [e1, e2]
  · funext y
    show V c main_v44 (((cfg1.win 1).blk t).view.emb y) = V c main_v44 y
    refine congrArg _ (funext fun a => Fin.ext ?_)
    match a with
    | ⟨0, _⟩ =>
      show win1_1.index t (0 : Fin 2) * 1 + 1 * (y 0).val = (y 0).val
      rw [e3]; omega
    | ⟨1, _⟩ =>
      show win1_1.index t (1 : Fin 2) * 64 + 1 * (y 1).val = (y 1).val
      rw [e4]; omega
  · show win1_2.index t (1 : Fin 2) * 64 + 1 * (j 1).val = (j 1).val
    rw [e2]; omega

/-- An index of the array is in point `t`'s output block iff each coordinate is in the block's range on its axis. -/
theorem mem_block1 (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v45).slice (win1_2.rect t)).set ↔ _
  rw [View.set_slice_whole, Rect.mem_set_unit]
  exact Iff.rfl

/-- Row `r` of the array lies in the block of point `r / 5000`: the 20 blocks of 5000 rows fill the 100000 rows. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 20 := N_1
  obtain ⟨t, ht⟩ : ∃ t : Fin cfg1.N, t.val = (i 0).val / 5000 :=
    ⟨⟨(i 0).val / 5000, by show _ < grid1.N; rw [hN]; omega⟩, rfl⟩
  obtain ⟨e0, e1, e2, e3, e4, e5⟩ := index_maps1 t
  refine ⟨t, flush1_2 t, ?_⟩
  rw [mem_block1]
  intro a
  match a with
  | ⟨0, _⟩ =>
    show win1_2.index t (0 : Fin 2) * 5000 ≤ (i 0).val ∧ (i 0).val < win1_2.index t (0 : Fin 2) * 5000 + 5000
    rw [e5, ht]; omega
  | ⟨1, _⟩ =>
    show win1_2.index t (1 : Fin 2) * 64 ≤ (i 1).val ∧ (i 1).val < win1_2.index t (1 : Fin 2) * 64 + 64
    rw [e2]; omega

/-- Region 1 leaves, in its output array, the first layer's epilogue max (a + row, 0) of the two arrays it reads. -/
theorem epilogue1 :
    (dat1 (F := Ideal) V c).arrAt 2 cfg1.N = Cert.Gcn.biasReluRow (F := Ideal) (V c main_v43) (V c main_v44) :=
  (dat1 V c).arrAt_eq_of_cover 2 _ (fun t _ => flushed1 V c t) cover1

/-! ## Region 3: the second layer's epilogue -/

/-- The printed index maps over the 20 grid points: the input block and the output block are the same rows, block `t` at
    point `t`, all 64 columns; the bias row is read whole at every point. -/
theorem index_maps3 : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0
    ∧ win3_2.index t (0 : Fin 2) = t.val :=
  (by decide +kernel : ∀ t : Fin grid3.N, _)

/-- What point `t` writes back is block `t` of the specification's epilogue of the arrays the region finds. -/
theorem flushed3 (t : Fin cfg3.N) :
    (dat3 (F := Ideal) V c).flushed 2 t
      = ((cfg3.win 2).blk t).view.read (Elt Ideal) (Cert.Gcn.biasReluRow (F := Ideal) (V c main_v59) (V c main_v60)) := by
  show (cfg3.win 2).cut (grid3.coords t) ((dat3 V c).after 2 t) = _
  rw [after3_2]
  unfold out3_2
  rw [View.canon_unit_zero zero_offsets]
  simp only [View.ld_unit_zero (S := S5000x64) zero_offsets, View.ld_unit_zero (S := S1x64) zero_offsets]
  obtain ⟨e0, e1, e2, e3, e4, e5⟩ := index_maps3 t
  funext j
  show k3_pay1 (iblk3 V c 0 t) (iblk3 V c 1 t) j
      = Cert.Gcn.biasReluRow (F := Ideal) (V c main_v59) (V c main_v60) (((cfg3.win 2).blk t).view.emb j)
  refine (congrFun (body3_eq_body1 _ _) j).trans <| biasRelu_block _ _ _ _ j _ ?_ ?_ ?_
  · show V c main_v59 (((cfg3.win 0).blk t).view.emb j) = V c main_v59 (((cfg3.win 2).blk t).view.emb j)
    refine congrArg _ (funext fun a => Fin.ext ?_)
    match a with
    | ⟨0, _⟩ =>
      show win3_0.index t (0 : Fin 2) * 5000 + 1 * (j 0).val = win3_2.index t (0 : Fin 2) * 5000 + 1 * (j 0).val
      rw [e0]
    | ⟨1, _⟩ =>
      show win3_0.index t (1 : Fin 2) * 64 + 1 * (j 1).val = win3_2.index t (1 : Fin 2) * 64 + 1 * (j 1).val
      rw [e1, e2]
  · funext y
    show V c main_v60 (((cfg3.win 1).blk t).view.emb y) = V c main_v60 y
    refine congrArg _ (funext fun a => Fin.ext ?_)
    match a with
    | ⟨0, _⟩ =>
      show win3_1.index t (0 : Fin 2) * 1 + 1 * (y 0).val = (y 0).val
      rw [e3]; omega
    | ⟨1, _⟩ =>
      show win3_1.index t (1 : Fin 2) * 64 + 1 * (y 1).val = (y 1).val
      rw [e4]; omega
  · show win3_2.index t (1 : Fin 2) * 64 + 1 * (j 1).val = (j 1).val
    rw [e2]; omega

/-- An index of the array is in point `t`'s output block iff each coordinate is in the block's range on its axis. -/
theorem mem_block3 (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v61).slice (win3_2.rect t)).set ↔ _
  rw [View.set_slice_whole, Rect.mem_set_unit]
  exact Iff.rfl

/-- Row `r` of the array lies in the block of point `r / 5000`: the 20 blocks of 5000 rows fill the 100000 rows. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 20 := N_3
  obtain ⟨t, ht⟩ : ∃ t : Fin cfg3.N, t.val = (i 0).val / 5000 :=
    ⟨⟨(i 0).val / 5000, by show _ < grid3.N; rw [hN]; omega⟩, rfl⟩
  obtain ⟨e0, e1, e2, e3, e4, e5⟩ := index_maps3 t
  refine ⟨t, flush3_2 t, ?_⟩
  rw [mem_block3]
  intro a
  match a with
  | ⟨0, _⟩ =>
    show win3_2.index t (0 : Fin 2) * 5000 ≤ (i 0).val ∧ (i 0).val < win3_2.index t (0 : Fin 2) * 5000 + 5000
    rw [e5, ht]; omega
  | ⟨1, _⟩ =>
    show win3_2.index t (1 : Fin 2) * 64 ≤ (i 1).val ∧ (i 1).val < win3_2.index t (1 : Fin 2) * 64 + 64
    rw [e2]; omega

/-- Region 3 leaves, in its output array, the second layer's epilogue max (a + row, 0) of the two arrays it reads. -/
theorem epilogue3 :
    (dat3 (F := Ideal) V c).arrAt 2 cfg3.N = Cert.Gcn.biasReluRow (F := Ideal) (V c main_v59) (V c main_v60) :=
  (dat3 V c).arrAt_eq_of_cover 2 _ (fun t _ => flushed3 V c t) cover3

/-! ## Region 5: the third layer's epilogue -/

/-- The printed index maps over the 20 grid points: the input block and the output block are the same rows, block `t` at
    point `t`, all 64 columns; the bias row is read whole at every point. -/
theorem index_maps5 : ∀ t : Fin cfg5.N, win5_0.index t (0 : Fin 2) = win5_2.index t (0 : Fin 2)
    ∧ win5_0.index t (1 : Fin 2) = 0 ∧ win5_2.index t (1 : Fin 2) = 0
    ∧ win5_1.index t (0 : Fin 2) = 0 ∧ win5_1.index t (1 : Fin 2) = 0
    ∧ win5_2.index t (0 : Fin 2) = t.val :=
  (by decide +kernel : ∀ t : Fin grid5.N, _)

/-- What point `t` writes back is block `t` of the specification's epilogue of the arrays the region finds. -/
theorem flushed5 (t : Fin cfg5.N) :
    (dat5 (F := Ideal) V c).flushed 2 t
      = ((cfg5.win 2).blk t).view.read (Elt Ideal) (Cert.Gcn.biasOnlyRow (F := Ideal) (V c main_v75) (V c main_v76)) := by
  show (cfg5.win 2).cut (grid5.coords t) ((dat5 V c).after 2 t) = _
  rw [after5_2]
  unfold out5_2
  rw [View.canon_unit_zero zero_offsets]
  simp only [View.ld_unit_zero (S := S5000x64) zero_offsets, View.ld_unit_zero (S := S1x64) zero_offsets]
  obtain ⟨e0, e1, e2, e3, e4, e5⟩ := index_maps5 t
  funext j
  show k5_pay1 (iblk5 V c 0 t) (iblk5 V c 1 t) j
      = Cert.Gcn.biasOnlyRow (F := Ideal) (V c main_v75) (V c main_v76) (((cfg5.win 2).blk t).view.emb j)
  refine biasOnly_block _ _ _ _ j _ ?_ ?_ ?_
  · show V c main_v75 (((cfg5.win 0).blk t).view.emb j) = V c main_v75 (((cfg5.win 2).blk t).view.emb j)
    refine congrArg _ (funext fun a => Fin.ext ?_)
    match a with
    | ⟨0, _⟩ =>
      show win5_0.index t (0 : Fin 2) * 5000 + 1 * (j 0).val = win5_2.index t (0 : Fin 2) * 5000 + 1 * (j 0).val
      rw [e0]
    | ⟨1, _⟩ =>
      show win5_0.index t (1 : Fin 2) * 64 + 1 * (j 1).val = win5_2.index t (1 : Fin 2) * 64 + 1 * (j 1).val
      rw [e1, e2]
  · funext y
    show V c main_v76 (((cfg5.win 1).blk t).view.emb y) = V c main_v76 y
    refine congrArg _ (funext fun a => Fin.ext ?_)
    match a with
    | ⟨0, _⟩ =>
      show win5_1.index t (0 : Fin 2) * 1 + 1 * (y 0).val = (y 0).val
      rw [e3]; omega
    | ⟨1, _⟩ =>
      show win5_1.index t (1 : Fin 2) * 64 + 1 * (y 1).val = (y 1).val
      rw [e4]; omega
  · show win5_2.index t (1 : Fin 2) * 64 + 1 * (j 1).val = (j 1).val
    rw [e2]; omega

/-- An index of the array is in point `t`'s output block iff each coordinate is in the block's range on its axis. -/
theorem mem_block5 (t : Fin cfg5.N) (i : S100000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v77).slice (win5_2.rect t)).set ↔ _
  rw [View.set_slice_whole, Rect.mem_set_unit]
  exact Iff.rfl

/-- Row `r` of the array lies in the block of point `r / 5000`: the 20 blocks of 5000 rows fill the 100000 rows. -/
theorem cover5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : grid5.N = 20 := N_5
  obtain ⟨t, ht⟩ : ∃ t : Fin cfg5.N, t.val = (i 0).val / 5000 :=
    ⟨⟨(i 0).val / 5000, by show _ < grid5.N; rw [hN]; omega⟩, rfl⟩
  obtain ⟨e0, e1, e2, e3, e4, e5⟩ := index_maps5 t
  refine ⟨t, flush5_2 t, ?_⟩
  rw [mem_block5]
  intro a
  match a with
  | ⟨0, _⟩ =>
    show win5_2.index t (0 : Fin 2) * 5000 ≤ (i 0).val ∧ (i 0).val < win5_2.index t (0 : Fin 2) * 5000 + 5000
    rw [e5, ht]; omega
  | ⟨1, _⟩ =>
    show win5_2.index t (1 : Fin 2) * 64 ≤ (i 1).val ∧ (i 1).val < win5_2.index t (1 : Fin 2) * 64 + 64
    rw [e2]; omega

/-- Region 5 leaves, in its output array, the third layer's epilogue a + row of the two arrays it reads. -/
theorem epilogue5 :
    (dat5 (F := Ideal) V c).arrAt 2 cfg5.N = Cert.Gcn.biasOnlyRow (F := Ideal) (V c main_v75) (V c main_v76) :=
  (dat5 V c).arrAt_eq_of_cover 2 _ (fun t _ => flushed5 V c t) cover5

/-! ## Region 6: the output map -/

/-- The printed index maps at the one grid point: every window's block is its whole array. -/
theorem index_maps6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- What the one point writes back is the (whole-array) block of the specification's output map of the arrays the region finds. -/
theorem flushed6 (t : Fin cfg6.N) :
    (dat6 (F := Ideal) V c).flushed 3 t
      = ((cfg6.win 3).blk t).view.read (Elt Ideal)
          (Cert.Gcn.headRow (F := Ideal) (V c main_v89) (V c main_arg9) (V c main_v90)) := by
  show (cfg6.win 3).cut (grid6.coords t) ((dat6 V c).after 3 t) = _
  rw [after6_3]
  unfold out6_3
  rw [View.canon_unit_zero zero_offsets]
  simp only [View.ld_unit_zero (S := S256x64) zero_offsets, View.ld_unit_zero (S := S64x1) zero_offsets,
    View.ld_unit_zero (S := S1x1) zero_offsets]
  obtain ⟨e0, e1, e2, e3, e4, e5, e6, e7⟩ := index_maps6 t
  funext j
  show k6_pay1 (iblk6 V c 0 t) (iblk6 V c 1 t) (iblk6 V c 2 t) j
      = Cert.Gcn.headRow (F := Ideal) (V c main_v89) (V c main_arg9) (V c main_v90) (((cfg6.win 3).blk t).view.emb j)
  refine head_block _ _ _ _ _ _ ?_ ?_ ?_ j _ ?_
  · funext y
    show V c main_v89 (((cfg6.win 0).blk t).view.emb y) = V c main_v89 y
    refine congrArg _ (funext fun a => Fin.ext ?_)
    match a with
    | ⟨0, _⟩ =>
      show win6_0.index t (0 : Fin 2) * 256 + 1 * (y 0).val = (y 0).val
      rw [e0]; omega
    | ⟨1, _⟩ =>
      show win6_0.index t (1 : Fin 2) * 64 + 1 * (y 1).val = (y 1).val
      rw [e1]; omega
  · funext y
    show V c main_arg9 (((cfg6.win 1).blk t).view.emb y) = V c main_arg9 y
    refine congrArg _ (funext fun a => Fin.ext ?_)
    match a with
    | ⟨0, _⟩ =>
      show win6_1.index t (0 : Fin 2) * 64 + 1 * (y 0).val = (y 0).val
      rw [e2]; omega
    | ⟨1, _⟩ =>
      show win6_1.index t (1 : Fin 2) * 1 + 1 * (y 1).val = (y 1).val
      rw [e3]; omega
  · funext y
    show V c main_v90 (((cfg6.win 2).blk t).view.emb y) = V c main_v90 y
    refine congrArg _ (funext fun a => Fin.ext ?_)
    match a with
    | ⟨0, _⟩ =>
      show win6_2.index t (0 : Fin 2) * 1 + 1 * (y 0).val = (y 0).val
      rw [e4]; omega
    | ⟨1, _⟩ =>
      show win6_2.index t (1 : Fin 2) * 1 + 1 * (y 1).val = (y 1).val
      rw [e5]; omega
  · intro a
    match a with
    | ⟨0, _⟩ =>
      show win6_3.index t (0 : Fin 2) * 256 + 1 * (j 0).val = (j 0).val
      rw [e6]; omega
    | ⟨1, _⟩ =>
      show win6_3.index t (1 : Fin 2) * 1 + 1 * (j 1).val = (j 1).val
      rw [e7]; omega

/-- An index of the array is in the point's output block iff each coordinate is in the block's range on its axis. -/
theorem mem_block6 (t : Fin cfg6.N) (i : S256x1.Idx) :
    i ∈ ((cfg6.win 3).blk t).view.set ↔ ∀ a : Fin 2, win6_3.index t a * S256x1.size a ≤ (i a).val
      ∧ (i a).val < win6_3.index t a * S256x1.size a + S256x1.size a := by
  show i ∈ ((View.whole main_v91).slice (win6_3.rect t)).set ↔ _
  rw [View.set_slice_whole, Rect.mem_set_unit]
  exact Iff.rfl

/-- The one point's block is the whole [256, 1] array. -/
theorem cover6 (i : S256x1.Idx) :
    ∃ t : Fin cfg6.N, (cfg6.win 3).flush t = true ∧ i ∈ ((cfg6.win 3).blk t).view.set := by
  have hi0 : (i 0).val < 256 := (i 0).isLt
  have hi1 : (i 1).val < 1 := (i 1).isLt
  obtain ⟨e0, e1, e2, e3, e4, e5, e6, e7⟩ := index_maps6 t6_0
  refine ⟨t6_0, flush6_3 t6_0, ?_⟩
  rw [mem_block6]
  intro a
  match a with
  | ⟨0, _⟩ =>
    show win6_3.index t6_0 (0 : Fin 2) * 256 ≤ (i 0).val ∧ (i 0).val < win6_3.index t6_0 (0 : Fin 2) * 256 + 256
    rw [e6]; omega
  | ⟨1, _⟩ =>
    show win6_3.index t6_0 (1 : Fin 2) * 1 ≤ (i 1).val ∧ (i 1).val < win6_3.index t6_0 (1 : Fin 2) * 1 + 1
    rw [e7]; omega

/-- Region 6 leaves, in its output array, the output map (product plus bias entry) of the three arrays it reads. -/
theorem head6 :
    (dat6 (F := Ideal) V c).arrAt 3 cfg6.N
      = Cert.Gcn.headRow (F := Ideal) (V c main_v89) (V c main_arg9) (V c main_v90) :=
  (dat6 V c).arrAt_eq_of_cover 3 _ (fun t _ => flushed6 V c t) cover6

end Cert.KernelIdeal.Regions

end
-- ==== Proof.KernelValue.lean ====
/-
  The idealized kernel's result is the network of its arguments.

  The generated frame gives the buffer contents at every boundary between @main's segments as a fold (W0 at the
  launch … W14 at the return): a host stretch applies its operations, a region leaves each of its arrays at what its
  write-backs fold to and every other buffer as it found it. Walking the fold forward, the buffers the next segment
  reads are named, boundary by boundary, as the network's intermediate arrays of the launch memory:
    before region 0 the extended source and target lists, the edge coefficients and the untouched arguments;
    after region 0 the first projection; after the next stretch its aggregation over the graph and the bias as a row;
    after region 1 the first layer; … ; after region 5 the third layer; after the last stretch the mean over each graph;
    after region 6 the head's output — the network (Network.lean gcn).
  The index lists, the coefficients, the bias vectors and the graph assignment are read again by later stretches, so
  each step also says that it leaves them alone.
-/
import proofs.«110052_j45208825758041_1_alg».proof.Proof.Gen.KernelIdeal.Frame
import proofs.«110052_j45208825758041_1_alg».proof.Proof.KernelFold
import proofs.«110052_j45208825758041_1_alg».proof.Proof.KernelStretches
import proofs.«110052_j45208825758041_1_alg».proof.Proof.KernelKept
import proofs.«110052_j45208825758041_1_alg».proof.Proof.ProjectionRegions
import proofs.«110052_j45208825758041_1_alg».proof.Proof.EpilogueRegions
import proofs.«110052_j45208825758041_1_alg».proof.Proof.Network

noncomputable section

namespace Cert.KernelIdeal.NetValue

open Idealize.ShloMosaic Idealize.ShloMosaic.TcCoe Idealize.ShloMosaic.StableHlo Idealize.SL.Sem
open Cert.KernelIdeal Cert.KernelIdeal.Gen

/-! ## The stretches before region 0, over any launch valuation -/

section Entry

variable (W : Valuation τ sig (Elt Ideal))

theorem weight_entry : StableHlo.after (hostOps0_1 (F := Ideal)) (StableHlo.after hostOps0 W) (Proc.devRef .tc main_v14)
    = Cert.Gcn.weight (W (Proc.devRef .tc main_arg1)) := by
  rw [Stretch.select01, Stretch.positive0, Stretch.rsqrt0, Stretch.zero0, Stretch.weight_eq]

theorem sources_entry : StableHlo.after (hostOps0_2 (F := Ideal)) (StableHlo.after hostOps0_1 (StableHlo.after hostOps0 W)) (Proc.devRef .tc main_v3)
    = Cert.Gcn.sources (W (Proc.devRef .tc main_arg1)) :=
  (Kept.kept0_2 _ main_v3 (by decide)).trans ((Kept.kept0_1 _ main_v3 (by decide)).trans (Stretch.sources0 W))

theorem targets_entry : StableHlo.after (hostOps0_2 (F := Ideal)) (StableHlo.after hostOps0_1 (StableHlo.after hostOps0 W)) (Proc.devRef .tc main_v6)
    = Cert.Gcn.targets (W (Proc.devRef .tc main_arg1)) :=
  (Kept.kept0_2 _ main_v6 (by decide)).trans ((Kept.kept0_1 _ main_v6 (by decide)).trans (Stretch.targets0 W))

theorem coefficient_entry : StableHlo.after (hostOps0_2 (F := Ideal)) (StableHlo.after hostOps0_1 (StableHlo.after hostOps0 W)) (Proc.devRef .tc main_v29)
    = Cert.Gcn.coefficient (W (Proc.devRef .tc main_arg1)) :=
  Stretch.coefficient02 _ _ (weight_entry W) ((Kept.kept0_1 _ main_v3 (by decide)).trans (Stretch.sources0 W))
    ((Kept.kept0_1 _ main_v6 (by decide)).trans (Stretch.targets0 W))

theorem argument_entry (r : Ref sig .tc) (h0 : r ∉ Kept.written0) (h1 : r ∉ Kept.written0_1) (h2 : r ∉ Kept.written0_2) :
    StableHlo.after (hostOps0_2 (F := Ideal)) (StableHlo.after hostOps0_1 (StableHlo.after hostOps0 W)) (Proc.devRef .tc r) = W (Proc.devRef .tc r) :=
  (Kept.kept0_2 _ r h2).trans ((Kept.kept0_1 _ r h1).trans (Kept.kept0 _ r h0))

end Entry

/-! ## The fold, boundary by boundary -/

variable (m : (ℓ : Loc nD τ sig) → Buf (Elt Ideal) ℓ) (ρ : Dev nD → PrngReg) (c : Dev nD)

/-- The buffers later stretches read again: the extended index lists, the edge coefficients, the graph assignment,
    the three bias vectors, the head's weights and bias. No region stages one of them and no later stretch writes one. -/
def carried : List (Ref sig .tc) :=
  [main_v3, main_v6, main_v29, main_arg2, main_arg4, main_arg6, main_arg8, main_arg9, main_arg10]

theorem keep4 : ∀ r ∈ carried, W4 m ρ c (Proc.devRef .tc r) = W3 m ρ c (Proc.devRef .tc r) :=
  fun r hr => W4_of_ne m ρ c r ((by decide : ∀ r ∈ carried, ∀ w, Pipeline.arrRef spec0 w ≠ r) r hr)
theorem keep5 : ∀ r ∈ carried, W5 m ρ c (Proc.devRef .tc r) = W4 m ρ c (Proc.devRef .tc r) :=
  fun r hr => Kept.kept1 _ r ((by decide : ∀ r ∈ carried, r ∉ Kept.written1) r hr)
theorem keep6 : ∀ r ∈ carried, W6 m ρ c (Proc.devRef .tc r) = W5 m ρ c (Proc.devRef .tc r) :=
  fun r hr => W6_of_ne m ρ c r ((by decide : ∀ r ∈ carried, ∀ w, Pipeline.arrRef spec1 w ≠ r) r hr)
theorem keep7 : ∀ r ∈ carried, W7 m ρ c (Proc.devRef .tc r) = W6 m ρ c (Proc.devRef .tc r) :=
  fun r hr => W7_of_ne m ρ c r ((by decide : ∀ r ∈ carried, ∀ w, Pipeline.arrRef spec2 w ≠ r) r hr)
theorem keep8 : ∀ r ∈ carried, W8 m ρ c (Proc.devRef .tc r) = W7 m ρ c (Proc.devRef .tc r) :=
  fun r hr => Kept.kept3 _ r ((by decide : ∀ r ∈ carried, r ∉ Kept.written3) r hr)
theorem keep9 : ∀ r ∈ carried, W9 m ρ c (Proc.devRef .tc r) = W8 m ρ c (Proc.devRef .tc r) :=
  fun r hr => W9_of_ne m ρ c r ((by decide : ∀ r ∈ carried, ∀ w, Pipeline.arrRef spec3 w ≠ r) r hr)
theorem keep10 : ∀ r ∈ carried, W10 m ρ c (Proc.devRef .tc r) = W9 m ρ c (Proc.devRef .tc r) :=
  fun r hr => W10_of_ne m ρ c r ((by decide : ∀ r ∈ carried, ∀ w, Pipeline.arrRef spec4 w ≠ r) r hr)
theorem keep11 : ∀ r ∈ carried, W11 m ρ c (Proc.devRef .tc r) = W10 m ρ c (Proc.devRef .tc r) :=
  fun r hr => Kept.kept5 _ r ((by decide : ∀ r ∈ carried, r ∉ Kept.written5) r hr)
theorem keep12 : ∀ r ∈ carried, W12 m ρ c (Proc.devRef .tc r) = W11 m ρ c (Proc.devRef .tc r) :=
  fun r hr => W12_of_ne m ρ c r ((by decide : ∀ r ∈ carried, ∀ w, Pipeline.arrRef spec5 w ≠ r) r hr)
theorem keep13 : ∀ r ∈ carried, W13 m ρ c (Proc.devRef .tc r) = W12 m ρ c (Proc.devRef .tc r) :=
  fun r hr => Kept.kept6 _ r ((by decide : ∀ r ∈ carried, r ∉ Kept.written6) r hr)

theorem back4 (r) (hr : r ∈ carried) : W4 m ρ c (Proc.devRef .tc r) = W3 m ρ c (Proc.devRef .tc r) := keep4 m ρ c r hr
theorem back5 (r) (hr : r ∈ carried) : W5 m ρ c (Proc.devRef .tc r) = W3 m ρ c (Proc.devRef .tc r) := (keep5 m ρ c r hr).trans (back4 m ρ c r hr)
theorem back6 (r) (hr : r ∈ carried) : W6 m ρ c (Proc.devRef .tc r) = W3 m ρ c (Proc.devRef .tc r) := (keep6 m ρ c r hr).trans (back5 m ρ c r hr)
theorem back7 (r) (hr : r ∈ carried) : W7 m ρ c (Proc.devRef .tc r) = W3 m ρ c (Proc.devRef .tc r) := (keep7 m ρ c r hr).trans (back6 m ρ c r hr)
theorem back8 (r) (hr : r ∈ carried) : W8 m ρ c (Proc.devRef .tc r) = W3 m ρ c (Proc.devRef .tc r) := (keep8 m ρ c r hr).trans (back7 m ρ c r hr)
theorem back9 (r) (hr : r ∈ carried) : W9 m ρ c (Proc.devRef .tc r) = W3 m ρ c (Proc.devRef .tc r) := (keep9 m ρ c r hr).trans (back8 m ρ c r hr)
theorem back10 (r) (hr : r ∈ carried) : W10 m ρ c (Proc.devRef .tc r) = W3 m ρ c (Proc.devRef .tc r) := (keep10 m ρ c r hr).trans (back9 m ρ c r hr)
theorem back11 (r) (hr : r ∈ carried) : W11 m ρ c (Proc.devRef .tc r) = W3 m ρ c (Proc.devRef .tc r) := (keep11 m ρ c r hr).trans (back10 m ρ c r hr)
theorem back12 (r) (hr : r ∈ carried) : W12 m ρ c (Proc.devRef .tc r) = W3 m ρ c (Proc.devRef .tc r) := (keep12 m ρ c r hr).trans (back11 m ρ c r hr)
theorem back13 (r) (hr : r ∈ carried) : W13 m ρ c (Proc.devRef .tc r) = W3 m ρ c (Proc.devRef .tc r) := (keep13 m ρ c r hr).trans (back12 m ρ c r hr)

/-! ### Before region 0 -/

theorem sources3 : W3 m ρ c (Proc.devRef .tc main_v3) = Cert.Gcn.sources (m ((c : Thread nD τ).loc main_arg1)) := sources_entry (W0 m ρ c)
theorem targets3 : W3 m ρ c (Proc.devRef .tc main_v6) = Cert.Gcn.targets (m ((c : Thread nD τ).loc main_arg1)) := targets_entry (W0 m ρ c)
theorem coefficient3 : W3 m ρ c (Proc.devRef .tc main_v29) = Cert.Gcn.coefficient (m ((c : Thread nD τ).loc main_arg1)) := coefficient_entry (W0 m ρ c)
theorem argument3 (r : Ref sig .tc) (h0 : r ∉ Kept.written0) (h1 : r ∉ Kept.written0_1) (h2 : r ∉ Kept.written0_2) :
    W3 m ρ c (Proc.devRef .tc r) = m ((c : Thread nD τ).loc r) := argument_entry (W0 m ρ c) r h0 h1 h2

/-- The head's weights and the two hidden weight matrices reach the regions that stage them untouched. -/
theorem w2_6 : W6 m ρ c (Proc.devRef .tc main_arg5) = m ((c : Thread nD τ).loc main_arg5) :=
  (W6_of_ne m ρ c main_arg5 (by decide)).trans ((Kept.kept1 _ main_arg5 (by decide)).trans
    ((W4_of_ne m ρ c main_arg5 (by decide)).trans (argument3 m ρ c main_arg5 (by decide) (by decide) (by decide))))
theorem w3_9 : W9 m ρ c (Proc.devRef .tc main_arg7) = m ((c : Thread nD τ).loc main_arg7) :=
  (W9_of_ne m ρ c main_arg7 (by decide)).trans ((Kept.kept3 _ main_arg7 (by decide)).trans
    ((W7_of_ne m ρ c main_arg7 (by decide)).trans ((W6_of_ne m ρ c main_arg7 (by decide)).trans ((Kept.kept1 _ main_arg7 (by decide)).trans
      ((W4_of_ne m ρ c main_arg7 (by decide)).trans (argument3 m ρ c main_arg7 (by decide) (by decide) (by decide)))))))

/-! ### The network's intermediate arrays, of the launch memory -/

/-- The edge list. -/
abbrev edges := m ((c : Thread nD τ).loc main_arg1)
/-- The first projection. -/
def proj1 : Cert.Gcn.Arr Ideal Cert.ReferenceIdeal.S100000x64 .f32 :=
  Cert.Gcn.project320 (m ((c : Thread nD τ).loc main_arg0)) (m ((c : Thread nD τ).loc main_arg3))
/-- The first layer. -/
def layer1 : Cert.Gcn.Arr Ideal Cert.ReferenceIdeal.S100000x64 .f32 :=
  Cert.Gcn.biasRelu (Cert.Gcn.aggregate (proj1 m c) (edges m c)) (m ((c : Thread nD τ).loc main_arg4))
/-- The second projection. -/
def proj2 : Cert.Gcn.Arr Ideal Cert.ReferenceIdeal.S100000x64 .f32 :=
  Cert.Gcn.project64 (layer1 m c) (m ((c : Thread nD τ).loc main_arg5))
/-- The second layer. -/
def layer2 : Cert.Gcn.Arr Ideal Cert.ReferenceIdeal.S100000x64 .f32 :=
  Cert.Gcn.biasRelu (Cert.Gcn.aggregate (proj2 m c) (edges m c)) (m ((c : Thread nD τ).loc main_arg6))
/-- The third projection. -/
def proj3 : Cert.Gcn.Arr Ideal Cert.ReferenceIdeal.S100000x64 .f32 :=
  Cert.Gcn.project64 (layer2 m c) (m ((c : Thread nD τ).loc main_arg7))
/-- The third layer: the node features entering the pooling. -/
def layer3 : Cert.Gcn.Arr Ideal Cert.ReferenceIdeal.S100000x64 .f32 :=
  Cert.Gcn.biasOnly (Cert.Gcn.aggregate (proj3 m c) (edges m c)) (m ((c : Thread nD τ).loc main_arg8))

theorem layer3_eq : layer3 m c = Cert.Gcn.layers (m ((c : Thread nD τ).loc main_arg0)) (m ((c : Thread nD τ).loc main_arg1))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) := rfl

/-! ### Region 0 to region 6 -/

theorem proj1_4 : W4 m ρ c (Proc.devRef .tc main_v30) = proj1 m c :=
  (W4_arr m ρ c 2).trans ((Regions.projection0 (V3 m ρ) c).trans
    (congrArg₂ (Cert.Gcn.project320 (F := Ideal)) (argument3 m ρ c main_arg0 (by decide) (by decide) (by decide))
      (argument3 m ρ c main_arg3 (by decide) (by decide) (by decide))))

theorem row_b1 : W5 m ρ c (Proc.devRef .tc main_v44)
    = broadcastInDim Cert.ReferenceIdeal.S1x64 ![1] Cert.ReferenceIdeal.Facts₀.bcast_S64_S1x64_1 (m ((c : Thread nD τ).loc main_arg4)) :=
  (Stretch.row1 (W4 m ρ c)).trans (congrArg _ ((back4 m ρ c main_arg4 (by decide)).trans (argument3 m ρ c main_arg4 (by decide) (by decide) (by decide))))

theorem agg1_5 : W5 m ρ c (Proc.devRef .tc main_v43) = Cert.Gcn.aggregate (proj1 m c) (edges m c) :=
  Stretch.aggregate1 (W4 m ρ c) _ _ ((back4 m ρ c main_v3 (by decide)).trans (sources3 m ρ c))
    ((back4 m ρ c main_v6 (by decide)).trans (targets3 m ρ c)) ((back4 m ρ c main_v29 (by decide)).trans (coefficient3 m ρ c)) (proj1_4 m ρ c)

theorem layer1_6 : W6 m ρ c (Proc.devRef .tc main_v45) = layer1 m c :=
  (W6_arr m ρ c 2).trans ((Regions.epilogue1 (V5 m ρ) c).trans
    (congrArg₂ (Cert.Gcn.biasReluRow (F := Ideal)) (agg1_5 m ρ c) (row_b1 m ρ c)))

theorem proj2_7 : W7 m ρ c (Proc.devRef .tc main_v46) = proj2 m c :=
  (W7_arr m ρ c 2).trans ((Regions.projection2 (V6 m ρ) c).trans
    (congrArg₂ (Cert.Gcn.project64 (F := Ideal)) (layer1_6 m ρ c) (w2_6 m ρ c)))

theorem row_b2 : W8 m ρ c (Proc.devRef .tc main_v60)
    = broadcastInDim Cert.ReferenceIdeal.S1x64 ![1] Cert.ReferenceIdeal.Facts₀.bcast_S64_S1x64_1 (m ((c : Thread nD τ).loc main_arg6)) :=
  (Stretch.row3 (W7 m ρ c)).trans (congrArg _ ((back7 m ρ c main_arg6 (by decide)).trans (argument3 m ρ c main_arg6 (by decide) (by decide) (by decide))))

theorem agg2_8 : W8 m ρ c (Proc.devRef .tc main_v59) = Cert.Gcn.aggregate (proj2 m c) (edges m c) :=
  Stretch.aggregate3 (W7 m ρ c) _ _ ((back7 m ρ c main_v3 (by decide)).trans (sources3 m ρ c))
    ((back7 m ρ c main_v6 (by decide)).trans (targets3 m ρ c)) ((back7 m ρ c main_v29 (by decide)).trans (coefficient3 m ρ c)) (proj2_7 m ρ c)

theorem layer2_9 : W9 m ρ c (Proc.devRef .tc main_v61) = layer2 m c :=
  (W9_arr m ρ c 2).trans ((Regions.epilogue3 (V8 m ρ) c).trans
    (congrArg₂ (Cert.Gcn.biasReluRow (F := Ideal)) (agg2_8 m ρ c) (row_b2 m ρ c)))

theorem proj3_10 : W10 m ρ c (Proc.devRef .tc main_v62) = proj3 m c :=
  (W10_arr m ρ c 2).trans ((Regions.projection4 (V9 m ρ) c).trans
    (congrArg₂ (Cert.Gcn.project64 (F := Ideal)) (layer2_9 m ρ c) (w3_9 m ρ c)))

theorem row_b3 : W11 m ρ c (Proc.devRef .tc main_v76)
    = broadcastInDim Cert.ReferenceIdeal.S1x64 ![1] Cert.ReferenceIdeal.Facts₀.bcast_S64_S1x64_1 (m ((c : Thread nD τ).loc main_arg8)) :=
  (Stretch.row5 (W10 m ρ c)).trans (congrArg _ ((back10 m ρ c main_arg8 (by decide)).trans (argument3 m ρ c main_arg8 (by decide) (by decide) (by decide))))

theorem agg3_11 : W11 m ρ c (Proc.devRef .tc main_v75) = Cert.Gcn.aggregate (proj3 m c) (edges m c) :=
  Stretch.aggregate5 (W10 m ρ c) _ _ ((back10 m ρ c main_v3 (by decide)).trans (sources3 m ρ c))
    ((back10 m ρ c main_v6 (by decide)).trans (targets3 m ρ c)) ((back10 m ρ c main_v29 (by decide)).trans (coefficient3 m ρ c)) (proj3_10 m ρ c)

theorem layer3_12 : W12 m ρ c (Proc.devRef .tc main_v77) = layer3 m c :=
  (W12_arr m ρ c 2).trans ((Regions.epilogue5 (V11 m ρ) c).trans
    (congrArg₂ (Cert.Gcn.biasOnlyRow (F := Ideal)) (agg3_11 m ρ c) (row_b3 m ρ c)))

theorem pooled_13 : W13 m ρ c (Proc.devRef .tc main_v89) = Cert.Gcn.meanPool (layer3 m c) (m ((c : Thread nD τ).loc main_arg2)) :=
  Stretch.pool6 (W12 m ρ c) _ _ (layer3_12 m ρ c) ((back12 m ρ c main_arg2 (by decide)).trans (argument3 m ρ c main_arg2 (by decide) (by decide) (by decide)))

theorem row_bl : W13 m ρ c (Proc.devRef .tc main_v90)
    = broadcastInDim Cert.ReferenceIdeal.S1x1 ![1] Cert.ReferenceIdeal.Facts₀.bcast_S1_S1x1_1 (m ((c : Thread nD τ).loc main_arg10)) :=
  (Stretch.row6 (W12 m ρ c)).trans (congrArg _ ((back12 m ρ c main_arg10 (by decide)).trans (argument3 m ρ c main_arg10 (by decide) (by decide) (by decide))))

theorem wl_13 : W13 m ρ c (Proc.devRef .tc main_arg9) = m ((c : Thread nD τ).loc main_arg9) :=
  (back13 m ρ c main_arg9 (by decide)).trans (argument3 m ρ c main_arg9 (by decide) (by decide) (by decide))

/-- THE RESULT: at the return the result buffer holds the network of the launch memory's arguments. -/
theorem result_14 : W14 m ρ c (Proc.devRef .tc main_v91)
    = Cert.Gcn.gcn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) :=
  (W14_arr m ρ c 3).trans ((Regions.head6 (V13 m ρ) c).trans
    ((congrArg₂ (fun p r => Cert.Gcn.headRow (F := Ideal) p (W13 m ρ c (Proc.devRef .tc main_arg9)) r) (pooled_13 m ρ c) (row_bl m ρ c)).trans
      ((congrArg (fun w => Cert.Gcn.headRow (F := Ideal) _ w _) (wl_13 m ρ c)).trans
        (congrArg (fun h => Cert.Gcn.head (F := Ideal) (Cert.Gcn.meanPool h _) _ _) (layer3_eq m c)))))

/-! ## The run -/

/-- Every execution of the idealized kernel ends with the network of the arguments in its result buffer and the
    arguments as launched. -/
theorem run_value : θ_run (defs (F := Ideal)) (onTc (τ := τ) (main (F := Ideal))) ⟨m, fun _ => 0, ρ⟩ (fun r => ∀ c : Dev nD,
      r.2.mem ((c.tc : Thread nD τ).loc main_v91)
        = Cert.Gcn.gcn (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v91 (by decide))).trans (result_14 m ρ c),
     (h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c)⟩)
    (Fold.run_fold m ρ)

end Cert.KernelIdeal.NetValue

end
-- ==== Proof.ReferenceValue.lean ====
/-
  The reference program's run with its result named: what @main's 126 host operations leave in the result buffer is the
  graph-convolution network `Cert.Gcn.gcn` of the eleven arguments, and the arguments are unchanged.

  The operations are read in seven stretches along the network's stages — the extended edge lists; the node weights; the
  edge coefficients; the three layers; the pooling with the output map —, each stretch over ANY contents of the buffers
  before it: its last buffer holds the stage's function of the buffers the stretch reads, and a buffer it does not write
  keeps its contents. The graph's three lists (extended sources, extended targets, edge coefficients) are computed once
  and read by all three layers; they are carried through the layers by the second kind of fact.
-/
import proofs.«110052_j45208825758041_1_alg».proof.Proof.ReferenceRun
import proofs.«110052_j45208825758041_1_alg».proof.Proof.Network
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Gcn (Arr)

variable {F : FTy → Type} [FloatOps F]

/-! ## The stages over the graph's lists

The specification states the weights, the coefficients and an aggregation as functions of the edge list; the operations
compute them from the extended lists already in buffers. These are the same functions with the lists as arguments. -/

/-- The in-degree of every node from the list of extended targets: 1 summed over the extended edges into each edge's target. -/
def degreeOf (t : Arr F S3300000 .i32) : Arr F S100000 .f32 :=
  Host.scatterAdd scatter_S100000_S3300000x1_S3300000_n_0_0_1
    (broadcastInDim S100000 ![] bcast_S_S100000 (constant (F := F) S_ .f32 0x00000000#32))
    (broadcastInDim S3300000x1 ![0] bcast_S3300000_S3300000x1_0 t)
    (broadcastInDim S3300000 ![] bcast_S_S3300000 (constant (F := F) S_ .f32 0x3F800000#32))

/-- A node's weight from the list of extended targets: deg^(-1/2) where deg > 0, and 0 elsewhere. -/
def weightOf (t : Arr F S3300000 .i32) : Arr F S100000 .f32 :=
  select (cmpf .ogt (degreeOf t) (broadcastInDim S100000 ![] bcast_S_S100000 (constant (F := F) S_ .f32 0x00000000#32)))
    (Host.rsqrt (degreeOf t))
    (broadcastInDim S100000 ![] bcast_S_S100000 (id (constant (F := F) S_ .f32 0x00000000#32)))

/-- An extended edge's coefficient from the node weights and the two lists of ends: the weight of its source times the weight of its target. -/
def coefficientOf (wt : Arr F S100000 .f32) (s t : Arr F S3300000 .i32) : Arr F S3300000 .f32 :=
  mulf (Host.gather gather_S100000_S3300000x1_S3300000_n_0_n_n_0_1_1 wt (broadcastInDim S3300000x1 ![0] bcast_S3300000_S3300000x1_0 (Cert.Gcn.wrapped s)))
    (Host.gather gather_S100000_S3300000x1_S3300000_n_0_n_n_0_1_1 wt (broadcastInDim S3300000x1 ![0] bcast_S3300000_S3300000x1_0 (Cert.Gcn.wrapped t)))

/-- One aggregation from the lists of sources, targets and coefficients of the extended edges: row `r` of the result is the sum,
    over the edges with target `r`, of the edge's coefficient times the row of `h` at the edge's source. -/
def aggregateOf (h : Arr F S100000x64 .f32) (s t : Arr F S3300000 .i32) (k : Arr F S3300000 .f32) : Arr F S100000x64 .f32 :=
  Host.scatterAdd scatter_S100000x64_S3300000x1_S3300000x64_1_0_0_1
    (broadcastInDim S100000x64 ![] bcast_S_S100000x64 (constant (F := F) S_ .f32 0x00000000#32))
    (broadcastInDim S3300000x1 ![0] bcast_S3300000_S3300000x1_0 t)
    (mulf (Host.gather gather_S100000x64_S3300000x1_S3300000x64_1_0_n_n_0_1_164 h (broadcastInDim S3300000x1 ![0] bcast_S3300000_S3300000x1_0 (Cert.Gcn.wrapped s)))
      (broadcastInDim S3300000x64 ![0, 1] bcast_S3300000x1_S3300000x64_0_1 (broadcastInDim S3300000x1 ![0] bcast_S3300000_S3300000x1_0 k)))

theorem weight_eq (e : Arr F S2x3200000 .i32) : Cert.Gcn.weight e = weightOf (Cert.Gcn.targets e) := rfl
theorem coefficient_eq (e : Arr F S2x3200000 .i32) :
    Cert.Gcn.coefficient e = coefficientOf (weightOf (Cert.Gcn.targets e)) (Cert.Gcn.sources e) (Cert.Gcn.targets e) := rfl
theorem aggregate_eq (h : Arr F S100000x64 .f32) (e : Arr F S2x3200000 .i32) :
    Cert.Gcn.aggregate h e = aggregateOf h (Cert.Gcn.sources e) (Cert.Gcn.targets e) (Cert.Gcn.coefficient e) := rfl

/-! ## The seven stretches of @main's operations -/

/-- Operations %0 … %6: the extended sources and targets. -/
abbrev w0 : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- The buffers that `w0`'s operations write. -/
abbrev w0_W : List (Ref sig .tc) := [main_v0, main_v1, main_v2, main_v3, main_v4, main_v5, main_v6]
theorem w0_writes : (w0 : List (HloOp τ sig (Elt F))).Forall fun op => op.writes ⊆ (w0_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that `w0` does not write keeps its contents through it. -/
theorem w0_keep (W : Valuation τ sig (Elt F)) (r : Ref sig .tc) (h : r ∉ w0_W) :
    after w0 W (Proc.devRef .tc r) = W (Proc.devRef .tc r) :=
  after_of_writes_sub w0 W w0_writes h

/-- Operations %cst … %14: the in-degrees and the node weights. -/
abbrev w1 : List (HloOp τ sig (Elt F)) :=
  [ nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The buffers that `w1`'s operations write. -/
abbrev w1_W : List (Ref sig .tc) := [main_cst, main_v7, main_cst_0, main_v8, main_v9, main_v10, main_cst_1, main_v11, main_v12, main_v13, main_cst_2, main_call0_v0, main_call0_v1, main_v14]
theorem w1_writes : (w1 : List (HloOp τ sig (Elt F))).Forall fun op => op.writes ⊆ (w1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that `w1` does not write keeps its contents through it. -/
theorem w1_keep (W : Valuation τ sig (Elt F)) (r : Ref sig .tc) (h : r ∉ w1_W) :
    after w1 W (Proc.devRef .tc r) = W (Proc.devRef .tc r) :=
  after_of_writes_sub w1 W w1_writes h

/-- Operations %c … %29: the two ends' indices moved into range, their weights gathered, the edge coefficients. -/
abbrev w2 : List (HloOp τ sig (Elt F)) :=
  [ nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- The buffers that `w2`'s operations write. -/
abbrev w2_W : List (Ref sig .tc) := [main_c, main_v15, main_v16, main_c_3, main_v17, main_v18, main_v19, main_v20, main_v21, main_c_4, main_v22, main_v23, main_c_5, main_v24, main_v25, main_v26, main_v27, main_v28, main_v29]
theorem w2_writes : (w2 : List (HloOp τ sig (Elt F))).Forall fun op => op.writes ⊆ (w2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that `w2` does not write keeps its contents through it. -/
theorem w2_keep (W : Valuation τ sig (Elt F)) (r : Ref sig .tc) (h : r ∉ w2_W) :
    after w2 W (Proc.devRef .tc r) = W (Proc.devRef .tc r) :=
  after_of_writes_sub w2 W w2_writes h

/-- Operations %30 … %47: the first layer (projection, aggregation, bias, maximum with zero). -/
abbrev w3 : List (HloOp τ sig (Elt F)) :=
  [ binary main_arg0 main_arg3 main_v30 ((fun l r => Host.dotGeneral dot_S100000x320_S320x64_S100000x64_1_0_0_1_n_n none l r) : (⟨S100000x320, .f32⟩ : BufTy).Contents (Elt F) → (⟨S320x64, .f32⟩ : BufTy).Contents (Elt F) → (⟨S100000x64, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x64 ![0, 1] bcast_S3300000x1_S3300000x64_0_1 : (⟨S3300000x1, .f32⟩ : BufTy).Contents (Elt F) → (⟨S3300000x64, .f32⟩ : BufTy).Contents (Elt F)),
    binary main_v37 main_v39 main_v40 (mulf : (⟨S3300000x64, .f32⟩ : BufTy).Contents (Elt F) → (⟨S3300000x64, .f32⟩ : BufTy).Contents (Elt F) → (⟨S3300000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg4 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf ]

/-- The buffers that `w3`'s operations write. -/
abbrev w3_W : List (Ref sig .tc) := [main_v30, main_c_6, main_v31, main_v32, main_c_7, main_v33, main_v34, main_v35, main_v36, main_v37, main_v38, main_v39, main_v40, main_cst_8, main_v41, main_v42, main_v43, main_v44, main_v45, main_v46, main_call1_cst, main_call1_v0, main_v47]
theorem w3_writes : (w3 : List (HloOp τ sig (Elt F))).Forall fun op => op.writes ⊆ (w3_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that `w3` does not write keeps its contents through it. -/
theorem w3_keep (W : Valuation τ sig (Elt F)) (r : Ref sig .tc) (h : r ∉ w3_W) :
    after w3 W (Proc.devRef .tc r) = W (Proc.devRef .tc r) :=
  after_of_writes_sub w3 W w3_writes h

/-- Operations %48 … %65: the second layer. -/
abbrev w4 : List (HloOp τ sig (Elt F)) :=
  [ binary main_v47 main_arg5 main_v48 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x64 ![0, 1] bcast_S3300000x1_S3300000x64_0_1 : (⟨S3300000x1, .f32⟩ : BufTy).Contents (Elt F) → (⟨S3300000x64, .f32⟩ : BufTy).Contents (Elt F)),
    binary main_v55 main_v57 main_v58 (mulf : (⟨S3300000x64, .f32⟩ : BufTy).Contents (Elt F) → (⟨S3300000x64, .f32⟩ : BufTy).Contents (Elt F) → (⟨S3300000x64, .f32⟩ : BufTy).Contents (Elt F)),
    nullary main_cst_11 (constant S_ .f32 0x00000000#32),
    unary main_cst_11 main_v59 (broadcastInDim S100000x64 ![] bcast_S_S100000x64 : (⟨S_, .f32⟩ : BufTy).Contents (Elt F) → (⟨S100000x64, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg6 main_v62 (broadcastInDim S1x64 ![1] bcast_S64_S1x64_1 : (⟨S64, .f32⟩ : BufTy).Contents (Elt F) → (⟨S1x64, .f32⟩ : BufTy).Contents (Elt F)),
    unary main_v62 main_v63 (broadcastInDim S100000x64 ![0, 1] bcast_S1x64_S100000x64_0_1 : (⟨S1x64, .f32⟩ : BufTy).Contents (Elt F) → (⟨S100000x64, .f32⟩ : BufTy).Contents (Elt F)),
    binary main_v61 main_v63 main_v64 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v64) (TRef.of (T := ⟨S100000x64, .f32⟩) main_call2_v0) (TRef.of (T := ⟨S100000x64, .f32⟩) main_v65) maximumf ]

/-- The buffers that `w4`'s operations write. -/
abbrev w4_W : List (Ref sig .tc) := [main_v48, main_c_9, main_v49, main_v50, main_c_10, main_v51, main_v52, main_v53, main_v54, main_v55, main_v56, main_v57, main_v58, main_cst_11, main_v59, main_v60, main_v61, main_v62, main_v63, main_v64, main_call2_cst, main_call2_v0, main_v65]
theorem w4_writes : (w4 : List (HloOp τ sig (Elt F))).Forall fun op => op.writes ⊆ (w4_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that `w4` does not write keeps its contents through it. -/
theorem w4_keep (W : Valuation τ sig (Elt F)) (r : Ref sig .tc) (h : r ∉ w4_W) :
    after w4 W (Proc.devRef .tc r) = W (Proc.devRef .tc r) :=
  after_of_writes_sub w4 W w4_writes h

/-- Operations %66 … %82: the third layer (no maximum). -/
abbrev w5 : List (HloOp τ sig (Elt F)) :=
  [ binary main_v65 main_arg7 main_v66 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_12 (constantI S_ 32 0#32),
    unary main_c_12 main_v67 (broadcastInDim S3300000 ![] bcast_S_S3300000 : (⟨S_, .i32⟩ : BufTy).Contents (Elt F) → (⟨S3300000, .i32⟩ : BufTy).Contents (Elt F)),
    binary main_v3 main_v67 main_v68 (cmpi .slt : (⟨S3300000, .i32⟩ : BufTy).Contents (Elt F) → (⟨S3300000, .i32⟩ : BufTy).Contents (Elt F) → (⟨S3300000, .i1⟩ : BufTy).Contents (Elt F)),
    nullary main_c_13 (constantI S_ 32 100000#32),
    unary main_c_13 main_v69 (broadcastInDim S3300000 ![] bcast_S_S3300000 : (⟨S_, .i32⟩ : BufTy).Contents (Elt F) → (⟨S3300000, .i32⟩ : BufTy).Contents (Elt F)),
    binary main_v3 main_v69 main_v70 (addi : (⟨S3300000, .i32⟩ : BufTy).Contents (Elt F) → (⟨S3300000, .i32⟩ : BufTy).Contents (Elt F) → (⟨S3300000, .i32⟩ : BufTy).Contents (Elt F)),
    ternary main_v68 main_v70 main_v3 main_v71 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v71 main_v72 (broadcastInDim S3300000x1 ![0] bcast_S3300000_S3300000x1_0 : (⟨S3300000, .i32⟩ : BufTy).Contents (Elt F) → (⟨S3300000x1, .i32⟩ : BufTy).Contents (Elt F)),
    binary main_v66 main_v72 main_v73 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v29 main_v74 (broadcastInDim S3300000x1 ![0] bcast_S3300000_S3300000x1_0 : (⟨S3300000, .f32⟩ : BufTy).Contents (Elt F) → (⟨S3300000x1, .f32⟩ : BufTy).Contents (Elt F)),
    unary main_v74 main_v75 (broadcastInDim S3300000x64 ![0, 1] bcast_S3300000x1_S3300000x64_0_1 : (⟨S3300000x1, .f32⟩ : BufTy).Contents (Elt F) → (⟨S3300000x64, .f32⟩ : BufTy).Contents (Elt F)),
    binary main_v73 main_v75 main_v76 (mulf : (⟨S3300000x64, .f32⟩ : BufTy).Contents (Elt F) → (⟨S3300000x64, .f32⟩ : BufTy).Contents (Elt F) → (⟨S3300000x64, .f32⟩ : BufTy).Contents (Elt F)),
    nullary main_cst_14 (constant S_ .f32 0x00000000#32),
    unary main_cst_14 main_v77 (broadcastInDim S100000x64 ![] bcast_S_S100000x64 : (⟨S_, .f32⟩ : BufTy).Contents (Elt F) → (⟨S100000x64, .f32⟩ : BufTy).Contents (Elt F)),
    unary main_v6 main_v78 (broadcastInDim S3300000x1 ![0] bcast_S3300000_S3300000x1_0 : (⟨S3300000, .i32⟩ : BufTy).Contents (Elt F) → (⟨S3300000x1, .i32⟩ : BufTy).Contents (Elt F)),
    ternary main_v77 main_v78 main_v76 main_v79 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg8 main_v80 (broadcastInDim S1x64 ![1] bcast_S64_S1x64_1 : (⟨S64, .f32⟩ : BufTy).Contents (Elt F) → (⟨S1x64, .f32⟩ : BufTy).Contents (Elt F)),
    unary main_v80 main_v81 (broadcastInDim S100000x64 ![0, 1] bcast_S1x64_S100000x64_0_1 : (⟨S1x64, .f32⟩ : BufTy).Contents (Elt F) → (⟨S100000x64, .f32⟩ : BufTy).Contents (Elt F)),
    binary main_v79 main_v81 main_v82 (addf : (⟨S100000x64, .f32⟩ : BufTy).Contents (Elt F) → (⟨S100000x64, .f32⟩ : BufTy).Contents (Elt F) → (⟨S100000x64, .f32⟩ : BufTy).Contents (Elt F)) ]

/-- The buffers that `w5`'s operations write. -/
abbrev w5_W : List (Ref sig .tc) := [main_v66, main_c_12, main_v67, main_v68, main_c_13, main_v69, main_v70, main_v71, main_v72, main_v73, main_v74, main_v75, main_v76, main_cst_14, main_v77, main_v78, main_v79, main_v80, main_v81, main_v82]
theorem w5_writes : (w5 : List (HloOp τ sig (Elt F))).Forall fun op => op.writes ⊆ (w5_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that `w5` does not write keeps its contents through it. -/
theorem w5_keep (W : Valuation τ sig (Elt F)) (r : Ref sig .tc) (h : r ∉ w5_W) :
    after w5 W (Proc.devRef .tc r) = W (Proc.devRef .tc r) :=
  after_of_writes_sub w5 W w5_writes h

/-- Operations %cst_15 … %98: the mean over each graph's nodes and the output map. -/
abbrev w6 : List (HloOp τ sig (Elt F)) :=
  [ nullary main_cst_15 (constant S_ .f32 0x00000000#32),
    unary main_cst_15 main_v83 (broadcastInDim S256x64 ![] bcast_S_S256x64 : (⟨S_, .f32⟩ : BufTy).Contents (Elt F) → (⟨S256x64, .f32⟩ : BufTy).Contents (Elt F)),
    unary main_arg2 main_v84 (broadcastInDim S100000x1 ![0] bcast_S100000_S100000x1_0 : (⟨S100000, .i32⟩ : BufTy).Contents (Elt F) → (⟨S100000x1, .i32⟩ : BufTy).Contents (Elt F)),
    ternary main_v83 main_v84 main_v82 main_v85 ((fun x i u => Host.scatterAdd scatter_S256x64_S100000x1_S100000x64_1_0_0_1 x i u) : (⟨S256x64, .f32⟩ : BufTy).Contents (Elt F) → (⟨S100000x1, .i32⟩ : BufTy).Contents (Elt F) → (⟨S100000x64, .f32⟩ : BufTy).Contents (Elt F) → (⟨S256x64, .f32⟩ : BufTy).Contents (Elt F)),
    nullary main_cst_16 (constant S_ .f32 0x3F800000#32),
    unary main_cst_16 main_v86 (broadcastInDim S100000 ![] bcast_S_S100000 : (⟨S_, .f32⟩ : BufTy).Contents (Elt F) → (⟨S100000, .f32⟩ : BufTy).Contents (Elt F)),
    nullary main_cst_17 (constant S_ .f32 0x00000000#32),
    unary main_cst_17 main_v87 (broadcastInDim S256 ![] bcast_S_S256 : (⟨S_, .f32⟩ : BufTy).Contents (Elt F) → (⟨S256, .f32⟩ : BufTy).Contents (Elt F)),
    unary main_arg2 main_v88 (broadcastInDim S100000x1 ![0] bcast_S100000_S100000x1_0 : (⟨S100000, .i32⟩ : BufTy).Contents (Elt F) → (⟨S100000x1, .i32⟩ : BufTy).Contents (Elt F)),
    ternary main_v87 main_v88 main_v86 main_v89 ((fun x i u => Host.scatterAdd scatter_S256_S100000x1_S100000_n_0_0_1 x i u) : (⟨S256, .f32⟩ : BufTy).Contents (Elt F) → (⟨S100000x1, .i32⟩ : BufTy).Contents (Elt F) → (⟨S100000, .f32⟩ : BufTy).Contents (Elt F) → (⟨S256, .f32⟩ : BufTy).Contents (Elt F)),
    nullary main_cst_18 (constant S_ .f32 0x3F800000#32),
    unary main_cst_18 main_v90 (broadcastInDim S256 ![] bcast_S_S256 : (⟨S_, .f32⟩ : BufTy).Contents (Elt F) → (⟨S256, .f32⟩ : BufTy).Contents (Elt F)),
    binary main_v89 main_v90 main_v91 (maximumf : (⟨S256, .f32⟩ : BufTy).Contents (Elt F) → (⟨S256, .f32⟩ : BufTy).Contents (Elt F) → (⟨S256, .f32⟩ : BufTy).Contents (Elt F)),
    unary main_v91 main_v92 (broadcastInDim S256x1 ![0] bcast_S256_S256x1_0 : (⟨S256, .f32⟩ : BufTy).Contents (Elt F) → (⟨S256x1, .f32⟩ : BufTy).Contents (Elt F)),
    unary main_v92 main_v93 (broadcastInDim S256x64 ![0, 1] bcast_S256x1_S256x64_0_1 : (⟨S256x1, .f32⟩ : BufTy).Contents (Elt F) → (⟨S256x64, .f32⟩ : BufTy).Contents (Elt F)),
    binary main_v85 main_v93 main_v94 (Host.divf : (⟨S256x64, .f32⟩ : BufTy).Contents (Elt F) → (⟨S256x64, .f32⟩ : BufTy).Contents (Elt F) → (⟨S256x64, .f32⟩ : BufTy).Contents (Elt F)),
    binary main_v94 main_arg9 main_v95 ((fun l r => Host.dotGeneral dot_S256x64_S64x1_S256x1_1_0_0_1_n_n none l r) : (⟨S256x64, .f32⟩ : BufTy).Contents (Elt F) → (⟨S64x1, .f32⟩ : BufTy).Contents (Elt F) → (⟨S256x1, .f32⟩ : BufTy).Contents (Elt F)),
    unary main_arg10 main_v96 (broadcastInDim S1x1 ![1] bcast_S1_S1x1_1 : (⟨S1, .f32⟩ : BufTy).Contents (Elt F) → (⟨S1x1, .f32⟩ : BufTy).Contents (Elt F)),
    unary main_v96 main_v97 (broadcastInDim S256x1 ![0, 1] bcast_S1x1_S256x1_0_1 : (⟨S1x1, .f32⟩ : BufTy).Contents (Elt F) → (⟨S256x1, .f32⟩ : BufTy).Contents (Elt F)),
    binary main_v95 main_v97 main_v98 (addf : (⟨S256x1, .f32⟩ : BufTy).Contents (Elt F) → (⟨S256x1, .f32⟩ : BufTy).Contents (Elt F) → (⟨S256x1, .f32⟩ : BufTy).Contents (Elt F)) ]

/-- The buffers that `w6`'s operations write. -/
abbrev w6_W : List (Ref sig .tc) := [main_cst_15, main_v83, main_v84, main_v85, main_cst_16, main_v86, main_cst_17, main_v87, main_v88, main_v89, main_cst_18, main_v90, main_v91, main_v92, main_v93, main_v94, main_v95, main_v96, main_v97, main_v98]
theorem w6_writes : (w6 : List (HloOp τ sig (Elt F))).Forall fun op => op.writes ⊆ (w6_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that `w6` does not write keeps its contents through it. -/
theorem w6_keep (W : Valuation τ sig (Elt F)) (r : Ref sig .tc) (h : r ∉ w6_W) :
    after w6 W (Proc.devRef .tc r) = W (Proc.devRef .tc r) :=
  after_of_writes_sub w6 W w6_writes h

/-! ## Each stretch read over any contents `W` of the buffers before it -/

theorem w0_v3 (W : Valuation τ sig (Elt F)) :
    after w0 W (Proc.devRef .tc main_v3) = Cert.Gcn.sources (F := F) (W (Proc.devRef .tc main_arg1)) := by
  after_results; rfl

theorem w0_v6 (W : Valuation τ sig (Elt F)) :
    after w0 W (Proc.devRef .tc main_v6) = Cert.Gcn.targets (F := F) (W (Proc.devRef .tc main_arg1)) := by
  after_results; rfl

theorem w1_v14 (W : Valuation τ sig (Elt F)) :
    after w1 W (Proc.devRef .tc main_v14) = weightOf (F := F) (W (Proc.devRef .tc main_v6)) := by
  after_results_simp; rfl

theorem w2_v29 (W : Valuation τ sig (Elt F)) :
    after w2 W (Proc.devRef .tc main_v29) = coefficientOf (F := F) (W (Proc.devRef .tc main_v14)) (W (Proc.devRef .tc main_v3)) (W (Proc.devRef .tc main_v6)) := by
  after_results_simp; rfl

theorem w3_v47 (W : Valuation τ sig (Elt F)) :
    after w3 W (Proc.devRef .tc main_v47) = Cert.Gcn.biasRelu (F := F) (aggregateOf (Cert.Gcn.project320 (W (Proc.devRef .tc main_arg0)) (W (Proc.devRef .tc main_arg3)))
      (W (Proc.devRef .tc main_v3)) (W (Proc.devRef .tc main_v6)) (W (Proc.devRef .tc main_v29))) (W (Proc.devRef .tc main_arg4)) := by
  after_results_simp; rfl

theorem w4_v65 (W : Valuation τ sig (Elt F)) :
    after w4 W (Proc.devRef .tc main_v65) = Cert.Gcn.biasRelu (F := F) (aggregateOf (Cert.Gcn.project64 (W (Proc.devRef .tc main_v47)) (W (Proc.devRef .tc main_arg5)))
      (W (Proc.devRef .tc main_v3)) (W (Proc.devRef .tc main_v6)) (W (Proc.devRef .tc main_v29))) (W (Proc.devRef .tc main_arg6)) := by
  after_results_simp; rfl

theorem w5_v82 (W : Valuation τ sig (Elt F)) :
    after w5 W (Proc.devRef .tc main_v82) = Cert.Gcn.biasOnly (F := F) (aggregateOf (Cert.Gcn.project64 (W (Proc.devRef .tc main_v65)) (W (Proc.devRef .tc main_arg7)))
      (W (Proc.devRef .tc main_v3)) (W (Proc.devRef .tc main_v6)) (W (Proc.devRef .tc main_v29))) (W (Proc.devRef .tc main_arg8)) := by
  after_results_simp; rfl

theorem w6_v98 (W : Valuation τ sig (Elt F)) :
    after w6 W (Proc.devRef .tc main_v98) = Cert.Gcn.head (F := F) (Cert.Gcn.meanPool (W (Proc.devRef .tc main_v82)) (W (Proc.devRef .tc main_arg2)))
      (W (Proc.devRef .tc main_arg9)) (W (Proc.devRef .tc main_arg10)) := by
  after_results_simp; rfl

/-! ## The stretches in a row -/

set_option maxRecDepth 8192 in
/-- @main's operations are the seven stretches in a row. -/
theorem ops_eq : (RunP.ops : List (HloOp τ sig (Elt F))) = w0 ++ (w1 ++ (w2 ++ (w3 ++ (w4 ++ (w5 ++ w6))))) := rfl

section Values

variable (V : Valuation τ sig (Elt F))

/-- The buffers' contents after the first stretch, the first two, … , all seven, from contents `V`. -/
def val1 : Valuation τ sig (Elt F) := after w0 V
@[inherit_doc val1] def val2 : Valuation τ sig (Elt F) := after w1 (val1 V)
@[inherit_doc val1] def val3 : Valuation τ sig (Elt F) := after w2 (val2 V)
@[inherit_doc val1] def val4 : Valuation τ sig (Elt F) := after w3 (val3 V)
@[inherit_doc val1] def val5 : Valuation τ sig (Elt F) := after w4 (val4 V)
@[inherit_doc val1] def val6 : Valuation τ sig (Elt F) := after w5 (val5 V)
@[inherit_doc val1] def val7 : Valuation τ sig (Elt F) := after w6 (val6 V)

theorem after_ops : after RunP.ops V = val7 V :=
  (congrArg (fun l => after l V) ops_eq).trans (by simp only [StableHlo.after_append]; rfl)

/-! ### A buffer no stretch so far writes still holds what it held at the start -/

theorem val3_start (r : Ref sig .tc) (h0 : r ∉ w0_W) (h1 : r ∉ w1_W) (h2 : r ∉ w2_W) :
    val3 V (Proc.devRef .tc r) = V (Proc.devRef .tc r) :=
  (w2_keep _ r h2).trans ((w1_keep _ r h1).trans (w0_keep V r h0))
theorem val4_start (r : Ref sig .tc) (h0 : r ∉ w0_W) (h1 : r ∉ w1_W) (h2 : r ∉ w2_W) (h3 : r ∉ w3_W) :
    val4 V (Proc.devRef .tc r) = V (Proc.devRef .tc r) :=
  (w3_keep _ r h3).trans (val3_start V r h0 h1 h2)
theorem val5_start (r : Ref sig .tc) (h0 : r ∉ w0_W) (h1 : r ∉ w1_W) (h2 : r ∉ w2_W) (h3 : r ∉ w3_W) (h4 : r ∉ w4_W) :
    val5 V (Proc.devRef .tc r) = V (Proc.devRef .tc r) :=
  (w4_keep _ r h4).trans (val4_start V r h0 h1 h2 h3)
theorem val6_start (r : Ref sig .tc) (h0 : r ∉ w0_W) (h1 : r ∉ w1_W) (h2 : r ∉ w2_W) (h3 : r ∉ w3_W) (h4 : r ∉ w4_W) (h5 : r ∉ w5_W) :
    val6 V (Proc.devRef .tc r) = V (Proc.devRef .tc r) :=
  (w5_keep _ r h5).trans (val5_start V r h0 h1 h2 h3 h4)
theorem val7_start (r : Ref sig .tc) (h0 : r ∉ w0_W) (h1 : r ∉ w1_W) (h2 : r ∉ w2_W) (h3 : r ∉ w3_W) (h4 : r ∉ w4_W) (h5 : r ∉ w5_W)
    (h6 : r ∉ w6_W) : val7 V (Proc.devRef .tc r) = V (Proc.devRef .tc r) :=
  (w6_keep _ r h6).trans (val6_start V r h0 h1 h2 h3 h4 h5)

/-! ### The graph's lists, carried to the end of the third layer -/

theorem val1_v3 : val1 V (Proc.devRef .tc main_v3) = Cert.Gcn.sources (V (Proc.devRef .tc main_arg1)) := w0_v3 V
theorem val1_v6 : val1 V (Proc.devRef .tc main_v6) = Cert.Gcn.targets (V (Proc.devRef .tc main_arg1)) := w0_v6 V
theorem val2_v3 : val2 V (Proc.devRef .tc main_v3) = Cert.Gcn.sources (V (Proc.devRef .tc main_arg1)) := (w1_keep _ main_v3 (by decide)).trans (val1_v3 V)
theorem val2_v6 : val2 V (Proc.devRef .tc main_v6) = Cert.Gcn.targets (V (Proc.devRef .tc main_arg1)) := (w1_keep _ main_v6 (by decide)).trans (val1_v6 V)
theorem val2_v14 : val2 V (Proc.devRef .tc main_v14) = Cert.Gcn.weight (V (Proc.devRef .tc main_arg1)) :=
  (w1_v14 _).trans (by rw [val1_v6 V]; rfl)
theorem val3_v3 : val3 V (Proc.devRef .tc main_v3) = Cert.Gcn.sources (V (Proc.devRef .tc main_arg1)) := (w2_keep _ main_v3 (by decide)).trans (val2_v3 V)
theorem val3_v6 : val3 V (Proc.devRef .tc main_v6) = Cert.Gcn.targets (V (Proc.devRef .tc main_arg1)) := (w2_keep _ main_v6 (by decide)).trans (val2_v6 V)
theorem val3_v29 : val3 V (Proc.devRef .tc main_v29) = Cert.Gcn.coefficient (V (Proc.devRef .tc main_arg1)) :=
  (w2_v29 _).trans (by rw [val2_v14 V, val2_v3 V, val2_v6 V]; rfl)
theorem val4_v3 : val4 V (Proc.devRef .tc main_v3) = Cert.Gcn.sources (V (Proc.devRef .tc main_arg1)) := (w3_keep _ main_v3 (by decide)).trans (val3_v3 V)
theorem val4_v6 : val4 V (Proc.devRef .tc main_v6) = Cert.Gcn.targets (V (Proc.devRef .tc main_arg1)) := (w3_keep _ main_v6 (by decide)).trans (val3_v6 V)
theorem val4_v29 : val4 V (Proc.devRef .tc main_v29) = Cert.Gcn.coefficient (V (Proc.devRef .tc main_arg1)) := (w3_keep _ main_v29 (by decide)).trans (val3_v29 V)
theorem val5_v3 : val5 V (Proc.devRef .tc main_v3) = Cert.Gcn.sources (V (Proc.devRef .tc main_arg1)) := (w4_keep _ main_v3 (by decide)).trans (val4_v3 V)
theorem val5_v6 : val5 V (Proc.devRef .tc main_v6) = Cert.Gcn.targets (V (Proc.devRef .tc main_arg1)) := (w4_keep _ main_v6 (by decide)).trans (val4_v6 V)
theorem val5_v29 : val5 V (Proc.devRef .tc main_v29) = Cert.Gcn.coefficient (V (Proc.devRef .tc main_arg1)) := (w4_keep _ main_v29 (by decide)).trans (val4_v29 V)
theorem val6_v3 : val6 V (Proc.devRef .tc main_v3) = Cert.Gcn.sources (V (Proc.devRef .tc main_arg1)) := (w5_keep _ main_v3 (by decide)).trans (val5_v3 V)
theorem val6_v6 : val6 V (Proc.devRef .tc main_v6) = Cert.Gcn.targets (V (Proc.devRef .tc main_arg1)) := (w5_keep _ main_v6 (by decide)).trans (val5_v6 V)
theorem val6_v29 : val6 V (Proc.devRef .tc main_v29) = Cert.Gcn.coefficient (V (Proc.devRef .tc main_arg1)) := (w5_keep _ main_v29 (by decide)).trans (val5_v29 V)

/-! ### The layers, the pooling and the output map -/

theorem val4_v47 : val4 V (Proc.devRef .tc main_v47) = Cert.Gcn.biasRelu (Cert.Gcn.aggregate (Cert.Gcn.project320 (V (Proc.devRef .tc main_arg0)) (V (Proc.devRef .tc main_arg3))) (V (Proc.devRef .tc main_arg1))) (V (Proc.devRef .tc main_arg4)) :=
  (w3_v47 _).trans (by
    rw [val3_v3 V, val3_v6 V, val3_v29 V, val3_start V main_arg0 (by decide) (by decide) (by decide), val3_start V main_arg3 (by decide) (by decide) (by decide),
      val3_start V main_arg4 (by decide) (by decide) (by decide)]
    rfl)

theorem val5_v65 : val5 V (Proc.devRef .tc main_v65) = Cert.Gcn.biasRelu (Cert.Gcn.aggregate (Cert.Gcn.project64 (Cert.Gcn.biasRelu (Cert.Gcn.aggregate (Cert.Gcn.project320 (V (Proc.devRef .tc main_arg0)) (V (Proc.devRef .tc main_arg3))) (V (Proc.devRef .tc main_arg1))) (V (Proc.devRef .tc main_arg4))) (V (Proc.devRef .tc main_arg5))) (V (Proc.devRef .tc main_arg1))) (V (Proc.devRef .tc main_arg6)) :=
  (w4_v65 _).trans (by
    rw [val4_v3 V, val4_v6 V, val4_v29 V, val4_v47 V, val4_start V main_arg5 (by decide) (by decide) (by decide) (by decide), val4_start V main_arg6 (by decide) (by decide) (by decide) (by decide)]
    rfl)

theorem val6_v82 : val6 V (Proc.devRef .tc main_v82) = Cert.Gcn.layers (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  (w5_v82 _).trans (by
    rw [val5_v3 V, val5_v6 V, val5_v29 V, val5_v65 V, val5_start V main_arg7 (by decide) (by decide) (by decide) (by decide) (by decide), val5_start V main_arg8 (by decide) (by decide) (by decide) (by decide) (by decide)]
    rfl)

theorem val7_v98 : val7 V (Proc.devRef .tc main_v98) = Cert.Gcn.gcn (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) :=
  (w6_v98 _).trans (by
    rw [val6_v82 V, val6_start V main_arg2 (by decide) (by decide) (by decide) (by decide) (by decide) (by decide), val6_start V main_arg9 (by decide) (by decide) (by decide) (by decide) (by decide) (by decide), val6_start V main_arg10 (by decide) (by decide) (by decide) (by decide) (by decide) (by decide)]
    rfl)

/-- What @main's result buffer holds after all the operations: the network of the eleven arguments' contents. -/
theorem value : after RunP.ops V (Proc.devRef .tc main_v98) = Cert.Gcn.gcn (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [after_ops]; exact val7_v98 V

/-- No operation writes an argument. -/
theorem kept (r : Ref sig .tc) (h0 : r ∉ w0_W) (h1 : r ∉ w1_W) (h2 : r ∉ w2_W) (h3 : r ∉ w3_W) (h4 : r ∉ w4_W) (h5 : r ∉ w5_W)
    (h6 : r ∉ w6_W) : after RunP.ops V (Proc.devRef .tc r) = V (Proc.devRef .tc r) := by
  rw [after_ops]; exact val7_start V r h0 h1 h2 h3 h4 h5 h6

end Values

/-! ## The run -/

/-- On every device, from any memory with zero counters: every weakly fair execution of the reference's @main terminates
    with its result the network of the eleven arguments' launch contents, and the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v98) = Cert.Gcn.gcn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v98).trans (value (launchContents m c)),
      (h c main_arg0).trans (kept (launchContents m c) main_arg0 (by decide) (by decide) (by decide) (by decide) (by decide) (by decide) (by decide)),
      (h c main_arg1).trans (kept (launchContents m c) main_arg1 (by decide) (by decide) (by decide) (by decide) (by decide) (by decide) (by decide)),
      (h c main_arg2).trans (kept (launchContents m c) main_arg2 (by decide) (by decide) (by decide) (by decide) (by decide) (by decide) (by decide)),
      (h c main_arg3).trans (kept (launchContents m c) main_arg3 (by decide) (by decide) (by decide) (by decide) (by decide) (by decide) (by decide)),
      (h c main_arg4).trans (kept (launchContents m c) main_arg4 (by decide) (by decide) (by decide) (by decide) (by decide) (by decide) (by decide)),
      (h c main_arg5).trans (kept (launchContents m c) main_arg5 (by decide) (by decide) (by decide) (by decide) (by decide) (by decide) (by decide)),
      (h c main_arg6).trans (kept (launchContents m c) main_arg6 (by decide) (by decide) (by decide) (by decide) (by decide) (by decide) (by decide)),
      (h c main_arg7).trans (kept (launchContents m c) main_arg7 (by decide) (by decide) (by decide) (by decide) (by decide) (by decide) (by decide)),
      (h c main_arg8).trans (kept (launchContents m c) main_arg8 (by decide) (by decide) (by decide) (by decide) (by decide) (by decide) (by decide)),
      (h c main_arg9).trans (kept (launchContents m c) main_arg9 (by decide) (by decide) (by decide) (by decide) (by decide) (by decide) (by decide)),
      (h c main_arg10).trans (kept (launchContents m c) main_arg10 (by decide) (by decide) (by decide) (by decide) (by decide) (by decide) (by decide))⟩)
    (RunP.run_after m ρ)

end Cert.ReferenceIdeal.RefValue

end
-- ==== Proof.lean ====
/-
  A three-layer graph convolution network with mean pooling and a linear head, as a Pallas kernel program and as a
  plain array program: the two compute the same function of their eleven arguments over the extended reals.

  Both programs build the same edge lists (the given edges extended by one self loop per node), the same symmetric
  normalisation deg^(-1/2) · deg^(-1/2) of every edge, and in each layer gather the projected features of an edge's
  source, scale them, and sum them into the edge's target, with the same host operations. They differ in seven places,
  where the kernel program launches a region: the three feature projections x · W (tiled over 20 blocks of 5000 node
  rows, the operands narrowed to a shorter float format first — the identity on the extended reals — and accumulated
  from zero), the three bias epilogues (a + b on every row, twice followed by the maximum with zero), and the head
  (pooled · w + b in one block). Over the extended reals each region's array ends at exactly the whole-array operation
  the other program applies: a row block of a product is the product of the row block; a pointwise operation commutes
  with taking a block. No algebraic law beyond 0 + s = s joins the two sides, so the precondition (finite inputs) is
  not used.

  Network.lean states the common function gcn; KernelValue.lean walks the kernel program's boundaries to it;
  ReferenceValue.lean reads the array program's operations to it. The idealized kernel program is the printed one
  read at the extended reals (no rewrite was applied), so the preservation claim is trivial.
-/
import proofs.«110052_j45208825758041_1_alg».proof.Defs
import proofs.«110052_j45208825758041_1_alg».proof.Proof.Gen.Kernel
import proofs.«110052_j45208825758041_1_alg».proof.Proof.Gen.Kernel.Skeleton
import proofs.«110052_j45208825758041_1_alg».proof.Proof.Gen.Kernel.Launch
import proofs.«110052_j45208825758041_1_alg».proof.Proof.Gen.Kernel.Points
import proofs.«110052_j45208825758041_1_alg».proof.Proof.Gen.Kernel.Frame
import proofs.«110052_j45208825758041_1_alg».proof.Proof.Gen.KernelIdeal
import proofs.«110052_j45208825758041_1_alg».proof.Proof.Gen.KernelIdeal.Skeleton
import proofs.«110052_j45208825758041_1_alg».proof.Proof.Gen.KernelIdeal.Launch
import proofs.«110052_j45208825758041_1_alg».proof.Proof.Gen.KernelIdeal.Points
import proofs.«110052_j45208825758041_1_alg».proof.Proof.Gen.KernelIdeal.Frame
import proofs.«110052_j45208825758041_1_alg».proof.Proof.Gen.ReferenceIdeal
import proofs.«110052_j45208825758041_1_alg».proof.Proof.Gen.Pre_finite_inputs
import proofs.«110052_j45208825758041_1_alg».proof.Proof.KernelValue
import proofs.«110052_j45208825758041_1_alg».proof.Proof.ReferenceValue
import Idealize.ShloMosaic.Adequacy
import Idealize.ShloMosaic.Init

noncomputable section

namespace Cert.Proof

open Idealize.ShloMosaic Idealize.SL.Sem

/-- The kernel program runs and leaves its arguments as launched. -/
theorem frame_kernel : Cert.frame_Kernel := fun m ρ _ => Cert.Kernel.Gen.frame m ρ

/-- So does the kernel program read at the extended reals. -/
theorem frame_kernel_ideal : Cert.frame_KernelIdeal := fun m ρ _ => Cert.KernelIdeal.Gen.frame m ρ

/-- The array program runs and leaves its arguments as launched: its run, the result dropped. -/
theorem frame_reference_ideal : Cert.frame_ReferenceIdeal := fun m ρ _ =>
  (θ_run Cert.ReferenceIdeal.defs _ _).mono (fun _ h c => (h c).2) (Cert.ReferenceIdeal.RefValue.run_value m ρ)

/-- From memories agreeing on the arguments both programs end with the network of those arguments in their result
    buffers: the kernel program's run and the array program's run, posted at one term. -/
theorem algebraic : Cert.algebraic_KernelIdeal_ReferenceIdeal := by
  intro m ρ m' ρ' _ hagree
  refine ⟨_, Cert.KernelIdeal.NetValue.run_value m ρ, ?_⟩
  refine (θ_run Cert.ReferenceIdeal.defs _ _).mono (fun r h c => ⟨(h c).1.trans ?_, (h c).2⟩)
    (Cert.ReferenceIdeal.RefValue.run_value m' ρ')
  obtain ⟨e0, e1, e2, e3, e4, e5, e6, e7, e8, e9, e10⟩ := hagree c
  rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
